-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 8
  | .vmem => 12
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c0_9 : Index := 0#32
  ![v10.toNat, 0]
def k0_off2 (i : grid0.Coords) : Fin 2 → Nat :=
  let c5000_i32 : BitVec 32 := 5000#32
  let arg0 : BitVec 32 := BitVec.ofNat 32 (i 0).val
  let c200_i32_10 : BitVec 32 := 200#32
  let v12 : BitVec 32 := Scalar.muli arg0 c200_i32_10
  let v13 : BitVec 32 := Scalar.addi c5000_i32 v12
  let v14 : Index := Scalar.indexCast v13
  let c0_11 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  h_S200x128 : 0 < S200x128.numel
  reduces_S200x128_S128 : S200x128.Reduces [0] S128
  broadcasts_S1x128_S10000x128 : S1x128.Broadcasts S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S10000x128.size a
  hwx0_6 : ∀ i : grid0.Coords, EltTy.bits .f32 = 32 ∨ (Rect.block (s := S10000x128) S10000x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S10000x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelKit.lean ====
/-
  The graph-convolution kernel's region, seen from the host program: what the TensorCore's buffers hold when the
  region is entered (the two reshapes of gamma and beta have run; the five argument arrays are untouched), the
  two conditions the body branches on decided over the 25 grid points (the first point initialises z = x·W and
  the two running sums, the last point normalises), and the staging and scratch memrefs the body is called with.
-/
import proofs.«102800_g85255100825815_cont_sun_c4_478_9_alg».proof.Proof.Gen.Kernel.Launch
import proofs.«102800_g85255100825815_cont_sun_c4_478_9_alg».proof.Proof.Gen.Kernel.Skeleton
import proofs.«102800_g85255100825815_cont_sun_c4_478_9_alg».proof.Proof.Gen.Kernel.Points
import Idealize.ShloMosaic.Lib.Pipeline.FrameBody
import Idealize.ShloMosaic.Lib.Pipeline.Frame
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program up to the region -/

/-- Core `c`'s buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The host program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_arg (c : Dev nD) (b : Ref sig .tc) (h0 : b ≠ main_call0_v0) (h1 : b ≠ main_call0_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The body's two branches, over the grid -/

/-- The first branch (initialise) is taken exactly when the grid coordinate is 0. -/
abbrev condFirst (i : grid0.Coords) : Prop :=
  (Scalar.cmpi .ne (Scalar.extui (Scalar.cmpi .eq (BitVec.ofNat 32 (i 0).val) 0#32)) 0#32) = 1#1
/-- The second branch (normalise) is taken exactly when the grid coordinate is 24. -/
abbrev condLast (i : grid0.Coords) : Prop :=
  (Scalar.cmpi .ne (Scalar.extui (Scalar.cmpi .eq (BitVec.ofNat 32 (i 0).val) 24#32)) 0#32) = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)
/-- The grid coordinate of point `t` is `t`. -/
theorem coords_val : ∀ t : Fin cfg0.N, (grid0.coords t 0).val = t.val :=
  (by decide +kernel : ∀ t : Fin grid0.N, (grid0.coords t 0).val = t.val)

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x128 .f32 := win0_6.stage (cfg0.slots t 6)
abbrev hs6 (t : Fin cfg0.N) : (ms6 t).IsWhole := hstage0_6 ((cfg0.slots t 6).cast nbuf0_6)
/-- The three scratch buffers: z = x·W, the running column sums, the running column sums of squares. -/
abbrev scZ : Memref sig .tc .vmem S10000x128 .f32 := Memref.whole cc0_scratch0
abbrev scS : Memref sig .tc .vmem S1x128 .f32 := Memref.whole cc0_scratch1
abbrev scQ : Memref sig .tc .vmem S1x128 .f32 := Memref.whole cc0_scratch2
theorem hscZ : (scZ).IsWhole := Memref.isWhole_whole _
theorem hscS : (scS).IsWhole := Memref.isWhole_whole _
theorem hscQ : (scQ).IsWhole := Memref.isWhole_whole _

/-- The region's class invariant with the three scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scZ, scS, scQ, owns_whole]; try rfl

end Cert.Kernel.Hand

end
-- ==== Proof.KernelRunFirst.lean ====
/-
  The body at the first grid point (the initialising branch).
-/
import proofs.«102800_g85255100825815_cont_sun_c4_478_9_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first grid point (the initialising branch taken, the normalising one not): from the whole of x (`X`) and W (`Wm`) the body stores z = x·W into its scratch, zeroes the two running sums, then does what every point does — stores the two 200-row blocks of y = adj·z into the resident output block and adds their column sums and column sums of squares to the running sums. The lists are the stores each written buffer receives, newest first. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : condFirst i) (hc1 : ¬condLast i)
    (x1 : Vec F S200x10000 .f32) (x2 : Vec F S200x10000 .f32) (X : Vec F S10000x128 .f32) (Wm : Vec F S128x128 .f32) (Y : Vec F S10000x128 .f32) (Z : Vec F S10000x128 .f32) (s : Vec F S1x128 .f32) (q : Vec F S1x128 .f32) :
    Σ' (L7 : List (View.Piece (Elt F) S10000x128 .f32)) (L8 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare X ∗ owns (c : Thread nD τ) arg4 fullShare Wm ∗ owns (c : Thread nD τ) arg7 fullShare Y ∗ owns (c : Thread nD τ) arg8 fullShare Z ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg3 fullShare X ∗ owns (c : Thread nD τ) arg4 fullShare Wm ∗ (arg7.view.loc (c : Thread nD τ) ↦[arg7.view.set]{fullShare} arg7.view.writes (Elt F) (harg7.unread Y) L7) ∗ (arg8.view.loc (c : Thread nD τ) ↦[arg8.view.set]{fullShare} arg8.view.writes (Elt F) (harg8.unread Z) L8) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexact H7
    isplitl [H8]
    · iexact H8
    isplitl [H9]
    · iexact H9
    iexact H10

end Cert.Kernel.Hand

end
-- ==== Proof.KernelRunMid.lean ====
/-
  The body at a middle grid point (neither branch taken).
-/
import proofs.«102800_g85255100825815_cont_sun_c4_478_9_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point that is neither the first nor the last: from the two row blocks of adj (`x1`, `x2`), z in its scratch (`Z`) and the running sums (`s`, `q`), the body stores the two 200-row blocks of y = adj·z into the resident output block at the point's two row offsets and adds the blocks' column sums and column sums of squares to the running sums; the blocks of adj and z are left as found. The lists are the stores each written buffer receives, newest first. -/
noncomputable def runMid (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : ¬condLast i)
    (x1 : Vec F S200x10000 .f32) (x2 : Vec F S200x10000 .f32) (Z : Vec F S10000x128 .f32) (Y : Vec F S10000x128 .f32) (s : Vec F S1x128 .f32) (q : Vec F S1x128 .f32) :
    Σ' (L7 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg8 fullShare Z ∗ owns (c : Thread nD τ) arg7 fullShare Y ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg8 fullShare Z ∗ (arg7.view.loc (c : Thread nD τ) ↦[arg7.view.set]{fullShare} arg7.view.writes (Elt F) (harg7.unread Y) L7) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f8, %hf8, H8⟩, ⟨%f7, %hf7, H7⟩, ⟨%f9, %hf9, H9⟩, ⟨%f10, %hf10, H10⟩, Hk⟩
    obtain rfl := harg1.eq_unread hf1; obtain rfl := harg2.eq_unread hf2; obtain rfl := harg8.eq_unread hf8; obtain rfl := harg7.eq_unread hf7; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H8]
    · iexists _; isplitr; · ipureintro; exact harg8.read_unread _
      iexact H8
    isplitl [H7]
    · iexact H7
    isplitl [H9]
    · iexact H9
    iexact H10

end Cert.Kernel.Hand

end
-- ==== Proof.KernelRunLast.lean ====
/-
  The body at the last grid point (the normalising branch).
-/
import proofs.«102800_g85255100825815_cont_sun_c4_478_9_alg».proof.Proof.KernelKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last grid point (the normalising branch taken, the initialising one not): after the point's two block stores and the update of the running sums, the body reads the sums, gamma (`g`) and beta (`b`) and the whole resident output block, and stores the normalised, rectified block over it. The lists are the stores each written buffer receives, newest first. -/
noncomputable def runLast (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : condLast i)
    (x1 : Vec F S200x10000 .f32) (x2 : Vec F S200x10000 .f32) (g : Vec F S1x128 .f32) (b : Vec F S1x128 .f32) (Z : Vec F S10000x128 .f32) (Y : Vec F S10000x128 .f32) (s : Vec F S1x128 .f32) (q : Vec F S1x128 .f32) :
    Σ' (L7 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg5 fullShare g ∗ owns (c : Thread nD τ) arg6 fullShare b ∗ owns (c : Thread nD τ) arg8 fullShare Z ∗ owns (c : Thread nD τ) arg7 fullShare Y ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg5 fullShare g ∗ owns (c : Thread nD τ) arg6 fullShare b ∗ owns (c : Thread nD τ) arg8 fullShare Z ∗ (arg7.view.loc (c : Thread nD τ) ↦[arg7.view.set]{fullShare} arg7.view.writes (Elt F) (harg7.unread Y) L7) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f5, %hf5, H5⟩, ⟨%f6, %hf6, H6⟩, ⟨%f8, %hf8, H8⟩, ⟨%f7, %hf7, H7⟩, ⟨%f9, %hf9, H9⟩, ⟨%f10, %hf10, H10⟩, Hk⟩
    obtain rfl := harg1.eq_unread hf1; obtain rfl := harg2.eq_unread hf2; obtain rfl := harg5.eq_unread hf5; obtain rfl := harg6.eq_unread hf6; obtain rfl := harg8.eq_unread hf8; obtain rfl := harg7.eq_unread hf7; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H7]
    · iexact H7
    isplitl [H9]
    · iexact H9
    iexact H10

end Cert.Kernel.Hand

end
-- ==== Proof.KernelPieces.lean ====
/-
  What the body's stores leave, read back as plain functions. A whole-buffer load of what a whole memref holds is
  that function; a whole-buffer store leaves its payload; a store of 200 whole rows at row offset o leaves its
  payload on rows [o, o+200) and the older contents elsewhere (`rowsUpd`). With these, each case's written
  buffers are stated over the payload names: z = x·W, the two y blocks, and the running column sums.
-/
import proofs.«102800_g85255100825815_cont_sun_c4_478_9_alg».proof.Proof.KernelRunFirst
import proofs.«102800_g85255100825815_cont_sun_c4_478_9_alg».proof.Proof.KernelRunMid
import proofs.«102800_g85255100825815_cont_sun_c4_478_9_alg».proof.Proof.KernelRunLast
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-- A store through the whole-shape rectangle at zero offsets, newest, leaves its payload. -/
theorem read_store_whole {S : Shape} {κ : Kind} {sp : Space} (v : View sig κ sp S .f32) (f : v.ty.Contents (Elt F))
    {off : Fin S.rank → ℕ} (hz : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w :=
  funext fun y => View.read_writes_cons_unit_of_mem v f inb w L y y hz (fun a => (Nat.zero_add _).symm)

/-- Rows [o, o+200) of a [10000,128] table replaced by a [200,128] block, the rest kept. -/
def rowsUpd (o : ℕ) (P : Vec F S200x128 .f32) (Y : Vec F S10000x128 .f32) : Vec F S10000x128 .f32 := fun y =>
  if h : o ≤ (y (0 : Fin 2)).val ∧ (y (0 : Fin 2)).val < o + 200 then
    P (Rect.unitLocal (s := S10000x128) (off := ![o, 0]) (size := S200x128.size) y (Rect.unit_rows_mem y rfl rfl h))
  else Y y

/-- A store of 200 whole rows at a row offset in closed form, newest, read back. -/
theorem read_store_rows {κ : Kind} {sp : Space} (v : View sig κ sp S10000x128 .f32) (f : v.ty.Contents (Elt F))
    {off : Fin 2 → ℕ} {o : ℕ} (inb : ∀ a : Fin 2, off a + S200x128.size a ≤ S10000x128.size a) (hoff : off = ![o, 0])
    (w : Vec F S200x128 .f32) (L : List (View.Piece (Elt F) S10000x128 .f32)) :
    v.read (Elt F) (v.writes (Elt F) f ((⟨Rect.unit (s := S10000x128) off S200x128.size inb, w⟩ : View.Piece (Elt F) S10000x128 .f32) :: L))
      = rowsUpd o w (v.read (Elt F) (v.writes (Elt F) f L)) :=
  funext fun y => View.read_writes_cons_rows v f inb w L y hoff rfl rfl

/-! ## A middle point -/

section Mid
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : ¬condLast i)
  (x1 x2 : Vec F S200x10000 .f32) (Z Y : Vec F S10000x128 .f32) (s q : Vec F S1x128 .f32)

theorem mid_out :
    arg7.view.read (Elt F) (arg7.view.writes (Elt F) (harg7.unread Y) (runMid c i arg1 harg1 arg2 harg2 arg3 harg3 arg4 harg4 arg5 harg5 arg6 harg6 arg7 harg7 arg8 harg8 arg9 harg9 arg10 harg10 hc0 hc1 x1 x2 Z Y s q).1)
      = rowsUpd (200 * (i 0).val + 5000) (k0_pay7 x2 Z) (rowsUpd (200 * (i 0).val) (k0_pay6 x1 Z) Y) := by
  unfold runMid; dsimp only
  simp only [View.readAt_eq_ld, harg1.read_unread, harg2.read_unread, harg8.read_unread, View.ld_unit_zero (S := S200x10000) hz2, View.ld_unit_zero (S := S10000x128) hz2]
  rw [read_store_rows _ _ (k0_off2_inb i) (k0_off2_eq i), read_store_rows _ _ (k0_off1_inb i) (k0_off1_eq i), View.writes_nil, harg7.read_unread]

theorem mid_s :
    arg9.view.read (Elt F) (arg9.view.writes (Elt F) (harg9.unread s) (runMid c i arg1 harg1 arg2 harg2 arg3 harg3 arg4 harg4 arg5 harg5 arg6 harg6 arg7 harg7 arg8 harg8 arg9 harg9 arg10 harg10 hc0 hc1 x1 x2 Z Y s q).2.1)
      = k0_pay8 x1 Z x2 Z s := by
  unfold runMid; dsimp only
  simp only [View.readAt_eq_ld, harg1.read_unread, harg2.read_unread, harg8.read_unread, harg9.read_unread, View.ld_unit_zero (S := S200x10000) hz2, View.ld_unit_zero (S := S10000x128) hz2, View.ld_unit_zero (S := S1x128) hz2]
  exact read_store_whole _ _ hz2 _ _ _

theorem mid_q :
    arg10.view.read (Elt F) (arg10.view.writes (Elt F) (harg10.unread q) (runMid c i arg1 harg1 arg2 harg2 arg3 harg3 arg4 harg4 arg5 harg5 arg6 harg6 arg7 harg7 arg8 harg8 arg9 harg9 arg10 harg10 hc0 hc1 x1 x2 Z Y s q).2.2.1)
      = k0_pay1 (k0_pay7 x2 Z) q (k0_pay9 x1 Z) := by
  unfold runMid; dsimp only; sl_unfold_run_names
  simp only [View.readAt_eq_ld, harg1.read_unread, harg2.read_unread, harg8.read_unread, harg10.read_unread, View.ld_unit_zero (S := S200x10000) hz2, View.ld_unit_zero (S := S10000x128) hz2, View.ld_unit_zero (S := S1x128) hz2]
  exact read_store_whole _ _ hz2 _ _ _

end Mid

/-! ## The first point -/

section First
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : condFirst i) (hc1 : ¬condLast i)
  (x1 x2 : Vec F S200x10000 .f32) (X : Vec F S10000x128 .f32) (Wm : Vec F S128x128 .f32) (Y Z : Vec F S10000x128 .f32) (s q : Vec F S1x128 .f32)

theorem first_z :
    arg8.view.read (Elt F) (arg8.view.writes (Elt F) (harg8.unread Z) (runFirst c i arg1 harg1 arg2 harg2 arg3 harg3 arg4 harg4 arg5 harg5 arg6 harg6 arg7 harg7 arg8 harg8 arg9 harg9 arg10 harg10 hc0 hc1 x1 x2 X Wm Y Z s q).2.1)
      = k0_pay3 X Wm := by
  unfold runFirst; dsimp only; sl_unfold_run_names
  simp only [View.readAt_eq_ld, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem first_out :
    arg7.view.read (Elt F) (arg7.view.writes (Elt F) (harg7.unread Y) (runFirst c i arg1 harg1 arg2 harg2 arg3 harg3 arg4 harg4 arg5 harg5 arg6 harg6 arg7 harg7 arg8 harg8 arg9 harg9 arg10 harg10 hc0 hc1 x1 x2 X Wm Y Z s q).1)
      = rowsUpd (200 * (i 0).val + 5000) (k0_pay7 x2 (k0_pay3 X Wm)) (rowsUpd (200 * (i 0).val) (k0_pay6 x1 (k0_pay3 X Wm)) Y) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  rw [read_store_rows _ _ (k0_off2_inb i) (k0_off2_eq i), read_store_rows _ _ (k0_off1_inb i) (k0_off1_eq i), View.writes_nil, harg7.read_unread]

theorem first_s :
    arg9.view.read (Elt F) (arg9.view.writes (Elt F) (harg9.unread s) (runFirst c i arg1 harg1 arg2 harg2 arg3 harg3 arg4 harg4 arg5 harg5 arg6 harg6 arg7 harg7 arg8 harg8 arg9 harg9 arg10 harg10 hc0 hc1 x1 x2 X Wm Y Z s q).2.2.1)
      = k0_pay8 x1 (k0_pay3 X Wm) x2 (k0_pay3 X Wm) (k0_pay4 (F := F)) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem first_q :
    arg10.view.read (Elt F) (arg10.view.writes (Elt F) (harg10.unread q) (runFirst c i arg1 harg1 arg2 harg2 arg3 harg3 arg4 harg4 arg5 harg5 arg6 harg6 arg7 harg7 arg8 harg8 arg9 harg9 arg10 harg10 hc0 hc1 x1 x2 X Wm Y Z s q).2.2.2.1)
      = k0_pay1 (k0_pay7 x2 (k0_pay3 X Wm)) (k0_pay5 (F := F)) (k0_pay9 x1 (k0_pay3 X Wm)) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

end First

/-! ## The last point -/

section Last
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : condLast i)
  (x1 x2 : Vec F S200x10000 .f32) (g b : Vec F S1x128 .f32) (Z Y : Vec F S10000x128 .f32) (s q : Vec F S1x128 .f32)

theorem last_s :
    arg9.view.read (Elt F) (arg9.view.writes (Elt F) (harg9.unread s) (runLast c i arg1 harg1 arg2 harg2 arg3 harg3 arg4 harg4 arg5 harg5 arg6 harg6 arg7 harg7 arg8 harg8 arg9 harg9 arg10 harg10 hc0 hc1 x1 x2 g b Z Y s q).2.1)
      = k0_pay8 x1 Z x2 Z s := by
  unfold runLast; dsimp only; sl_unfold_run_names
  simp only [View.readAt_eq_ld, harg1.read_unread, harg2.read_unread, harg8.read_unread, harg9.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem last_q :
    arg10.view.read (Elt F) (arg10.view.writes (Elt F) (harg10.unread q) (runLast c i arg1 harg1 arg2 harg2 arg3 harg3 arg4 harg4 arg5 harg5 arg6 harg6 arg7 harg7 arg8 harg8 arg9 harg9 arg10 harg10 hc0 hc1 x1 x2 g b Z Y s q).2.2.1)
      = k0_pay1 (k0_pay7 x2 Z) q (k0_pay9 x1 Z) := by
  unfold runLast; dsimp only; sl_unfold_run_names
  simp only [View.readAt_eq_ld, harg1.read_unread, harg2.read_unread, harg8.read_unread, harg10.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem last_out :
    arg7.view.read (Elt F) (arg7.view.writes (Elt F) (harg7.unread Y) (runLast c i arg1 harg1 arg2 harg2 arg3 harg3 arg4 harg4 arg5 harg5 arg6 harg6 arg7 harg7 arg8 harg8 arg9 harg9 arg10 harg10 hc0 hc1 x1 x2 g b Z Y s q).1)
      = k0_pay2 (k0_pay8 x1 Z x2 Z s) (k0_pay1 (k0_pay7 x2 Z) q (k0_pay9 x1 Z)) g b
          (rowsUpd (200 * (i 0).val + 5000) (k0_pay7 x2 Z) (rowsUpd (200 * (i 0).val) (k0_pay6 x1 Z) Y)) := by
  unfold runLast; dsimp only; sl_unfold_run_names
  simp only [View.readAt_eq_ld, harg1.read_unread, harg2.read_unread, harg5.read_unread, harg6.read_unread, harg8.read_unread, harg9.read_unread, harg10.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  rw [read_store_whole _ _ hz2, read_store_rows _ _ (k0_off2_inb i) (k0_off2_eq i), read_store_rows _ _ (k0_off1_inb i) (k0_off1_eq i), View.writes_nil, harg7.read_unread]

end Last

end Cert.Kernel.Hand

end
-- ==== Proof.KernelData.lean ====
/-
  The region's proof data. Every input window's buffer holds its block of the array whenever the body reads it:
  the two adj windows are fetched at every point, x and W are read only at the first point (where they are
  fetched), and gamma and beta, fetched once, are left as found by every point. The three scratch buffers carry
  z = x·W and the two running column sums from the first point on. The output window is resident for the whole
  grid: a point overwrites its two 200-row ranges and keeps every other row, so what it leaves is stated
  RELATIVE to what it was handed; the last point then normalises the whole block.
-/
import proofs.«102800_g85255100825815_cont_sun_c4_478_9_alg».proof.Proof.KernelPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, z, the y blocks and the running sums -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- z = x·W, as the first point stores it. -/
def zAt (c : Dev nD) : Vec F S10000x128 .f32 := k0_pay3 (iblk m c 2 t0) (iblk m c 3 t0)
/-- The two 200-row blocks of y = adj·z that point `t` computes. -/
def yA (c : Dev nD) (t : Fin cfg0.N) : Vec F S200x128 .f32 := k0_pay6 (iblk m c 0 t) (zAt m c)
def yB (c : Dev nD) (t : Fin cfg0.N) : Vec F S200x128 .f32 := k0_pay7 (iblk m c 1 t) (zAt m c)

/-- The running column sums and column sums of squares before point `n`: zero, then each point adds its two blocks'. -/
def sumsAt (c : Dev nD) : (n : ℕ) → n ≤ cfg0.N → Vec F S1x128 .f32 × Vec F S1x128 .f32
  | 0, _ => (k0_pay4, k0_pay5)
  | n + 1, hn =>
    (k0_pay8 (iblk m c 0 ⟨n, hn⟩) (zAt m c) (iblk m c 1 ⟨n, hn⟩) (zAt m c) (sumsAt c n (Nat.le_of_lt hn)).1,
     k0_pay1 (yB m c ⟨n, hn⟩) (sumsAt c n (Nat.le_of_lt hn)).2 (k0_pay9 (iblk m c 0 ⟨n, hn⟩) (zAt m c)))

/-- What point `t` makes of the resident output block `Y`: its two row ranges overwritten. -/
def rowsStep (c : Dev nD) (t : Fin cfg0.N) (Y : Vec F S10000x128 .f32) : Vec F S10000x128 .f32 :=
  rowsUpd (200 * (grid0.coords t 0).val + 5000) (yB m c t) (rowsUpd (200 * (grid0.coords t 0).val) (yA m c t) Y)

/-- What point `t` leaves in the output block: the step, and at the last point the normalisation of the whole block. -/
def outStep (c : Dev nD) (t : Fin cfg0.N) (Y : Vec F S10000x128 .f32) : Vec F S10000x128 .f32 :=
  if t.val = 24 then
    k0_pay2 (sumsAt m c cfg0.N (Nat.le_refl _)).1 (sumsAt m c cfg0.N (Nat.le_refl _)).2 (iblk m c 4 t0) (iblk m c 5 t0) (rowsStep m c t Y)
  else rowsStep m c t Y

/-! ## The invariant between points -/

/-- Before the first point the scratch buffers hold anything; afterwards z and the running sums. -/
def PhiS (c : Dev nD) : (n : ℕ) → n ≤ cfg0.N → sProp 𝕄
  | 0, _ => Pipeline.ΦA spec0 c
  | n + 1, hn => iprop(iprop(owns (c : Thread nD τ) scZ fullShare (zAt m c) ∗ owns (c : Thread nD τ) scS fullShare (sumsAt m c (n + 1) hn).1 ∗ owns (c : Thread nD τ) scQ fullShare (sumsAt m c (n + 1) hn).2) ∗ (∃ r, prngReg c r))

theorem PhiS_pos (c : Dev nD) (n : ℕ) (h : n ≤ cfg0.N) (hz : n ≠ 0) :
    PhiS m c n h = iprop(iprop(owns (c : Thread nD τ) scZ fullShare (zAt m c) ∗ owns (c : Thread nD τ) scS fullShare (sumsAt m c n h).1 ∗ owns (c : Thread nD τ) scQ fullShare (sumsAt m c n h).2) ∗ (∃ r, prngReg c r)) := by
  cases n with
  | zero => exact absurd rfl hz
  | succ n => rfl

/-! ## The proof data -/

/-- The relational proof data of the one pipeline on core `c`. The two adj windows share their array, each holding half of it. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ _ => True
    | ⟨2, _⟩ => fun _ _ => True
    | ⟨3, _⟩ => fun _ _ => True
    | ⟨4, _⟩ => fun Y X => X = Y
    | ⟨5, _⟩ => fun Y X => X = Y
    | ⟨6, _⟩ => fun Y X => X = outStep m c t Y
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (rdat m c).A w = V m c (Pipeline.arrRef spec0 w) := by
  dsimp only [rdat]

theorem after4 (c : Dev nD) (t : Fin cfg0.N) (Y X) : (rdat m c).after 4 t Y X ↔ X = Y := by dsimp only [rdat]; exact Iff.rfl
theorem after5 (c : Dev nD) (t : Fin cfg0.N) (Y X) : (rdat m c).after 5 t Y X ↔ X = Y := by dsimp only [rdat]; exact Iff.rfl
theorem after6 (c : Dev nD) (t : Fin cfg0.N) (Y X) : (rdat m c).after 6 t Y X ↔ X = outStep m c t Y := by dsimp only [rdat]; exact Iff.rfl

theorem hN25 : cfg0.N = 25 := N_0

/-! ## What the body finds in the input windows -/

theorem finds0 (c : Dev nD) (t : Fin cfg0.N) (X) (h : (rdat m c).Finds 0 t X) : X = iblk m c 0 t := by
  obtain ⟨d, rfl⟩ := ((rdat m c).finds_of_fetch (fetch0_0 t) X).mp h
  unfold RDat.fetched RDat.blockOf iblk; rfl
theorem finds1 (c : Dev nD) (t : Fin cfg0.N) (X) (h : (rdat m c).Finds 1 t X) : X = iblk m c 1 t := by
  obtain ⟨d, rfl⟩ := ((rdat m c).finds_of_fetch (fetch0_1 t) X).mp h
  unfold RDat.fetched RDat.blockOf iblk; rfl
theorem finds2 (c : Dev nD) (X) (h : (rdat m c).Finds 2 t0 X) : X = iblk m c 2 t0 := by
  obtain ⟨d, rfl⟩ := ((rdat m c).finds_of_fetch ((fetch0_2 t0).mpr rfl) X).mp h
  unfold RDat.fetched RDat.blockOf iblk; rfl
theorem finds3 (c : Dev nD) (X) (h : (rdat m c).Finds 3 t0 X) : X = iblk m c 3 t0 := by
  obtain ⟨d, rfl⟩ := ((rdat m c).finds_of_fetch ((fetch0_3 t0).mpr rfl) X).mp h
  unfold RDat.fetched RDat.blockOf iblk; rfl

/-- gamma's buffer is fetched at the first point and left as found by every point: it holds gamma's block throughout. -/
theorem finds4 (c : Dev nD) : ∀ (n : ℕ) (hn : n < cfg0.N) (X), (rdat m c).Finds 4 ⟨n, hn⟩ X → X = iblk m c 4 t0
  | 0, hn, X, h => by
    obtain ⟨d, rfl⟩ := ((rdat m c).finds_of_fetch ((fetch0_4 ⟨0, hn⟩).mpr rfl) X).mp h
    unfold RDat.fetched RDat.blockOf iblk; rfl
  | n + 1, hn, X, h => by
    have hN : n + 1 < 25 := lt_of_lt_of_eq hn hN25
    have hf : (cfg0.win 4).fetch ⟨n + 1, hn⟩ = false := Bool.eq_false_iff.mpr fun h => by
      have := (fetch0_4 _).mp h; dsimp only at this; omega
    rcases ((rdat m c).finds_of_pos hf (by simp) X).mp h with hfl | ⟨Y, hY, hYX⟩
    · exact absurd hfl (by simp [Window.flush])
    · rw [(after4 m c _ Y X).mp hYX]
      exact finds4 c n (Nat.lt_of_succ_lt hn) Y hY
theorem finds5 (c : Dev nD) : ∀ (n : ℕ) (hn : n < cfg0.N) (X), (rdat m c).Finds 5 ⟨n, hn⟩ X → X = iblk m c 5 t0
  | 0, hn, X, h => by
    obtain ⟨d, rfl⟩ := ((rdat m c).finds_of_fetch ((fetch0_5 ⟨0, hn⟩).mpr rfl) X).mp h
    unfold RDat.fetched RDat.blockOf iblk; rfl
  | n + 1, hn, X, h => by
    have hN : n + 1 < 25 := lt_of_lt_of_eq hn hN25
    have hf : (cfg0.win 5).fetch ⟨n + 1, hn⟩ = false := Bool.eq_false_iff.mpr fun h => by
      have := (fetch0_5 _).mp h; dsimp only at this; omega
    rcases ((rdat m c).finds_of_pos hf (by simp) X).mp h with hfl | ⟨Y, hY, hYX⟩
    · exact absurd hfl (by simp [Window.flush])
    · rw [(after5 m c _ Y X).mp hYX]
      exact finds5 c n (Nat.lt_of_succ_lt hn) Y hY

end Cert.Kernel.Hand

end
-- ==== Proof.KernelBody.lean ====
/-
  The body obligation: at each grid point, from the invariant and the windows' buffers as the body may find them,
  the body runs to the next point's invariant and leaves each buffer in the data's relation to what it was handed.
  Three cases by the point: the first (z and the sums initialised), a middle one, and the last (the block normalised).
-/
import proofs.«102800_g85255100825815_cont_sun_c4_478_9_alg».proof.Proof.KernelData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem after_triv0 (c : Dev nD) (t : Fin cfg0.N) (Y X) : (rdat m c).after 0 t Y X := by dsimp only [rdat]
theorem after_triv1 (c : Dev nD) (t : Fin cfg0.N) (Y X) : (rdat m c).after 1 t Y X := by dsimp only [rdat]
theorem after_triv2 (c : Dev nD) (t : Fin cfg0.N) (Y X) : (rdat m c).after 2 t Y X := by dsimp only [rdat]
theorem after_triv3 (c : Dev nD) (t : Fin cfg0.N) (Y X) : (rdat m c).after 3 t Y X := by dsimp only [rdat]

/-- A whole memref whose buffer received a list of stores is owned at what the stores read back as. -/
theorem owns_of_writes {S : Shape} (c : Dev nD) (arg : Memref sig .tc .vmem S .f32) (f : arg.view.ty.Contents (Elt F))
    (L : List (View.Piece (Elt F) S .f32)) (X : Vec F S .f32) (h : arg.view.read (Elt F) (arg.view.writes (Elt F) f L) = X) :
    (arg.view.loc (c : Thread nD τ) ↦[arg.view.set]{fullShare} arg.view.writes (Elt F) f L : sProp 𝕄) ⊢ owns (c : Thread nD τ) arg fullShare X := by
  unfold owns; iintro H; iexists _; isplitr
  · ipureintro; exact h
  · iexact H

theorem sumsAt_succ (c : Dev nD) (t : Fin cfg0.N) :
    sumsAt m c (t.val + 1) t.isLt
      = (k0_pay8 (iblk m c 0 t) (zAt m c) (iblk m c 1 t) (zAt m c) (sumsAt m c t.val (Nat.le_of_lt t.isLt)).1,
         k0_pay1 (yB m c t) (sumsAt m c t.val (Nat.le_of_lt t.isLt)).2 (k0_pay9 (iblk m c 0 t) (zAt m c))) := rfl

theorem PhiS_succ (c : Dev nD) (t : Fin cfg0.N) :
    (rdat m c).Φ t.succ = iprop(iprop(owns (c : Thread nD τ) scZ fullShare (zAt m c) ∗ owns (c : Thread nD τ) scS fullShare (sumsAt m c (t.val + 1) t.isLt).1 ∗ owns (c : Thread nD τ) scQ fullShare (sumsAt m c (t.val + 1) t.isLt).2) ∗ (∃ r, prngReg c r)) := rfl

set_option maxHeartbeats 2000000 in
theorem sound_mid (c : Dev nD) (t : Fin cfg0.N) (hz : t.val ≠ 0) (hl : t.val ≠ 24)
    (Y : (w : Fin cfg0.W) → (cfg0.win w).block.Idx → Elt F (cfg0.win w).elt) (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6))
      ⊢ wp frame (wpE (defs₀ (F := F)) Variants.none c none) Set.univ (bodyAt0 t) (fun _ => iprop((rdat m c).Φ t.succ ∗ (rdat m c).owesAt () t.succ
          ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X))) := by
  have hc0 : ¬condFirst (grid0.coords t) := fun h => hz ((hcondFirst t).mp h)
  have hc1 : ¬condLast (grid0.coords t) := fun h => hl ((hcondLast t).mp h)
  have e0 := finds0 m c t _ (hY 0)
  have e1 := finds1 m c t _ (hY 1)
  rw [show (rdat m c).Φ t.castSucc = PhiS m c t.val (Nat.le_of_lt t.isLt) from rfl, PhiS_pos m c _ _ hz, PhiS_succ,
    show (rdat m c).owesAt () t.succ = (rdat m c).owesAt () t.castSucc from rfl, e0, e1, sumsAt_succ]
  unfold bodyAt0
  iintro ⟨⟨⟨HZ, HS, HQ⟩, Hg⟩, Ho, H0, H1, H2, H3, H4, H5, H6⟩
  iapply ((runMid c (grid0.coords t) _ _ _ _ _ _ _ _ _ _ _ _ _ _ _ _ _ _ _ _ hc0 hc1 (iblk m c 0 t) (iblk m c 1 t) (zAt m c) (Y 6) (sumsAt m c t.val (Nat.le_of_lt t.isLt)).1 (sumsAt m c t.val (Nat.le_of_lt t.isLt)).2).2.2.2 Set.univ _)
  isplitl [H0]; · iexact H0
  isplitl [H1]; · iexact H1
  isplitl [HZ]; · iexact HZ
  isplitl [H6]; · iexact H6
  isplitl [HS]; · iexact HS
  isplitl [HQ]; · iexact HQ
  iintro ⟨H0, H1, HZ, H6, HS, HQ⟩
  isplitl [HZ HS HQ Hg]
  · isplitr [Hg]
    · isplitl [HZ]; · iexact HZ
      isplitl [HS]
      · iapply (owns_of_writes c _ _ _ _ (mid_s c (grid0.coords t) _ _ _ _ _ _ _ _ _ _ _ _ _ _ _ _ _ _ _ _ hc0 hc1 _ _ _ _ _ _)) $$ HS
      · iapply (owns_of_writes c _ _ _ _ (mid_q c (grid0.coords t) _ _ _ _ _ _ _ _ _ _ _ _ _ _ _ _ _ _ _ _ hc0 hc1 _ _ _ _ _ _)) $$ HQ
    · iexact Hg
  isplitl [Ho]; · iexact Ho
  isplitl [H0]
  · iexists _; isplitr
    swap
    · iexact H0
    · ipureintro; exact after_triv0 m c t _ _
  isplitl [H1]
  · iexists _; isplitr
    swap
    · iexact H1
    · ipureintro; exact after_triv1 m c t _ _
  isplitl [H2]
  · iexists _; isplitr
    swap
    · iexact H2
    · ipureintro; exact after_triv2 m c t _ _
  isplitl [H3]
  · iexists _; isplitr
    swap
    · iexact H3
    · ipureintro; exact after_triv3 m c t _ _
  isplitl [H4]
  · iexists _; isplitr
    swap
    · iexact H4
    · ipureintro; exact (after4 m c t _ _).mpr rfl
  isplitl [H5]
  · iexists _; isplitr
    swap
    · iexact H5
    · ipureintro; exact (after5 m c t _ _).mpr rfl
  iexists _; isplitr
  swap
  · iapply (owns_of_writes c _ _ _ _ (mid_out c (grid0.coords t) _ _ _ _ _ _ _ _ _ _ _ _ _ _ _ _ _ _ _ _ hc0 hc1 _ _ _ _ _ _)) $$ H6
  · ipureintro
    refine (after6 m c t _ _).mpr ?_
    unfold outStep rowsStep yA yB
    rw [if_neg hl]

/-- The last grid point. -/
abbrev tL : Fin cfg0.N := ⟨24, by decide⟩

set_option maxHeartbeats 2000000 in
theorem sound_first (c : Dev nD)
    (Y : (w : Fin cfg0.W) → (cfg0.win w).block.Idx → Elt F (cfg0.win w).elt) (hY : ∀ w, (rdat m c).Finds w t0 (Y w)) :
    iprop((rdat m c).Φ (t0).castSucc ∗ (rdat m c).owesAt () (t0).castSucc ∗ owns (c : Thread nD τ) (ms0 t0) fullShare (Y 0) ∗ owns (c : Thread nD τ) (ms1 t0) fullShare (Y 1) ∗ owns (c : Thread nD τ) (ms2 t0) fullShare (Y 2) ∗ owns (c : Thread nD τ) (ms3 t0) fullShare (Y 3) ∗ owns (c : Thread nD τ) (ms4 t0) fullShare (Y 4) ∗ owns (c : Thread nD τ) (ms5 t0) fullShare (Y 5) ∗ owns (c : Thread nD τ) (ms6 t0) fullShare (Y 6))
      ⊢ wp frame (wpE (defs₀ (F := F)) Variants.none c none) Set.univ (bodyAt0 t0) (fun _ => iprop((rdat m c).Φ (t0).succ ∗ (rdat m c).owesAt () (t0).succ
          ∗ (∃ X, ⌜(rdat m c).after 0 t0 (Y 0) X⌝ ∗ owns (c : Thread nD τ) (ms0 t0) fullShare X) ∗ (∃ X, ⌜(rdat m c).after 1 t0 (Y 1) X⌝ ∗ owns (c : Thread nD τ) (ms1 t0) fullShare X) ∗ (∃ X, ⌜(rdat m c).after 2 t0 (Y 2) X⌝ ∗ owns (c : Thread nD τ) (ms2 t0) fullShare X) ∗ (∃ X, ⌜(rdat m c).after 3 t0 (Y 3) X⌝ ∗ owns (c : Thread nD τ) (ms3 t0) fullShare X) ∗ (∃ X, ⌜(rdat m c).after 4 t0 (Y 4) X⌝ ∗ owns (c : Thread nD τ) (ms4 t0) fullShare X) ∗ (∃ X, ⌜(rdat m c).after 5 t0 (Y 5) X⌝ ∗ owns (c : Thread nD τ) (ms5 t0) fullShare X) ∗ (∃ X, ⌜(rdat m c).after 6 t0 (Y 6) X⌝ ∗ owns (c : Thread nD τ) (ms6 t0) fullShare X))) := by
  have hc0 : condFirst (grid0.coords (t0 : Fin cfg0.N)) := (hcondFirst t0).mpr rfl
  have hc1 : ¬condLast (grid0.coords (t0 : Fin cfg0.N)) := fun h => absurd ((hcondLast t0).mp h) (by decide)
  have e0 := finds0 m c t0 _ (hY 0)
  have e1 := finds1 m c t0 _ (hY 1)
  have e2 := finds2 m c _ (hY 2)
  have e3 := finds3 m c _ (hY 3)
  rw [show (rdat m c).Φ (t0 : Fin cfg0.N).castSucc = Pipeline.ΦA spec0 c from rfl, PhiA_eq, PhiS_succ,
    show (rdat m c).owesAt () (t0 : Fin cfg0.N).succ = (rdat m c).owesAt () (t0 : Fin cfg0.N).castSucc from rfl, e0, e1, e2, e3]
  have hz := fun dZ dS dQ => first_z c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have hs : ∀ dZ dS dQ, _ = (sumsAt m c ((t0 : Fin cfg0.N).val + 1) (t0 : Fin cfg0.N).isLt).1 := fun dZ dS dQ => first_s c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have hq : ∀ dZ dS dQ, _ = (sumsAt m c ((t0 : Fin cfg0.N).val + 1) (t0 : Fin cfg0.N).isLt).2 := fun dZ dS dQ => first_q c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have ho := fun dZ dS dQ => first_out c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  unfold bodyAt0
  iintro ⟨⟨⟨⟨%dZ, HZ⟩, ⟨%dS, HS⟩, ⟨%dQ, HQ⟩⟩, Hg⟩, Ho, H0, H1, H2, H3, H4, H5, H6⟩
  iapply ((runFirst c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ).2.2.2.2 Set.univ _)
  isplitl [H0]; · iexact H0
  isplitl [H1]; · iexact H1
  isplitl [H2]; · iexact H2
  isplitl [H3]; · iexact H3
  isplitl [H6]; · iexact H6
  isplitl [HZ]; · iexact HZ
  isplitl [HS]; · iexact HS
  isplitl [HQ]; · iexact HQ
  iintro ⟨H0, H1, H2, H3, H6, HZ, HS, HQ⟩
  isplitl [HZ HS HQ Hg]
  · isplitr [Hg]
    · isplitl [HZ]; · iapply (owns_of_writes c _ _ _ _ (hz dZ dS dQ)) $$ HZ
      isplitl [HS]
      · iapply (owns_of_writes c _ _ _ _ (hs dZ dS dQ)) $$ HS
      · iapply (owns_of_writes c _ _ _ _ (hq dZ dS dQ)) $$ HQ
    · iexact Hg
  isplitl [Ho]; · iexact Ho
  isplitl [H0]
  · iexists _; isplitr
    swap
    · iexact H0
    · ipureintro; exact after_triv0 m c t0 _ _
  isplitl [H1]
  · iexists _; isplitr
    swap
    · iexact H1
    · ipureintro; exact after_triv1 m c t0 _ _
  isplitl [H2]
  · iexists _; isplitr
    swap
    · iexact H2
    · ipureintro; exact after_triv2 m c t0 _ _
  isplitl [H3]
  · iexists _; isplitr
    swap
    · iexact H3
    · ipureintro; exact after_triv3 m c t0 _ _
  isplitl [H4]
  · iexists _; isplitr
    swap
    · iexact H4
    · ipureintro; exact (after4 m c t0 _ _).mpr rfl
  isplitl [H5]
  · iexists _; isplitr
    swap
    · iexact H5
    · ipureintro; exact (after5 m c t0 _ _).mpr rfl
  iexists _; isplitr
  swap
  · iapply (owns_of_writes c _ _ _ _ (ho dZ dS dQ)) $$ H6
  · ipureintro
    exact (after6 m c t0 _ _).mpr rfl

set_option maxHeartbeats 2000000 in
theorem sound_last (c : Dev nD)
    (Y : (w : Fin cfg0.W) → (cfg0.win w).block.Idx → Elt F (cfg0.win w).elt) (hY : ∀ w, (rdat m c).Finds w tL (Y w)) :
    iprop((rdat m c).Φ (tL).castSucc ∗ (rdat m c).owesAt () (tL).castSucc ∗ owns (c : Thread nD τ) (ms0 tL) fullShare (Y 0) ∗ owns (c : Thread nD τ) (ms1 tL) fullShare (Y 1) ∗ owns (c : Thread nD τ) (ms2 tL) fullShare (Y 2) ∗ owns (c : Thread nD τ) (ms3 tL) fullShare (Y 3) ∗ owns (c : Thread nD τ) (ms4 tL) fullShare (Y 4) ∗ owns (c : Thread nD τ) (ms5 tL) fullShare (Y 5) ∗ owns (c : Thread nD τ) (ms6 tL) fullShare (Y 6))
      ⊢ wp frame (wpE (defs₀ (F := F)) Variants.none c none) Set.univ (bodyAt0 tL) (fun _ => iprop((rdat m c).Φ (tL).succ ∗ (rdat m c).owesAt () (tL).succ
          ∗ (∃ X, ⌜(rdat m c).after 0 tL (Y 0) X⌝ ∗ owns (c : Thread nD τ) (ms0 tL) fullShare X) ∗ (∃ X, ⌜(rdat m c).after 1 tL (Y 1) X⌝ ∗ owns (c : Thread nD τ) (ms1 tL) fullShare X) ∗ (∃ X, ⌜(rdat m c).after 2 tL (Y 2) X⌝ ∗ owns (c : Thread nD τ) (ms2 tL) fullShare X) ∗ (∃ X, ⌜(rdat m c).after 3 tL (Y 3) X⌝ ∗ owns (c : Thread nD τ) (ms3 tL) fullShare X) ∗ (∃ X, ⌜(rdat m c).after 4 tL (Y 4) X⌝ ∗ owns (c : Thread nD τ) (ms4 tL) fullShare X) ∗ (∃ X, ⌜(rdat m c).after 5 tL (Y 5) X⌝ ∗ owns (c : Thread nD τ) (ms5 tL) fullShare X) ∗ (∃ X, ⌜(rdat m c).after 6 tL (Y 6) X⌝ ∗ owns (c : Thread nD τ) (ms6 tL) fullShare X))) := by
  have hc0 : ¬condFirst (grid0.coords (tL : Fin cfg0.N)) := fun h => absurd ((hcondFirst tL).mp h) (by decide)
  have hc1 : condLast (grid0.coords (tL : Fin cfg0.N)) := (hcondLast tL).mpr rfl
  have e0 := finds0 m c tL _ (hY 0)
  have e1 := finds1 m c tL _ (hY 1)
  have e4 := finds4 m c 24 (by decide) _ (hY 4)
  have e5 := finds5 m c 24 (by decide) _ (hY 5)
  rw [show (rdat m c).Φ (tL : Fin cfg0.N).castSucc = PhiS m c (tL : Fin cfg0.N).val (Nat.le_of_lt (tL : Fin cfg0.N).isLt) from rfl, PhiS_pos m c _ _ (by decide), PhiS_succ,
    show (rdat m c).owesAt () (tL : Fin cfg0.N).succ = (rdat m c).owesAt () (tL : Fin cfg0.N).castSucc from rfl, e0, e1, e4, e5]
  have hs : _ = (sumsAt m c ((tL : Fin cfg0.N).val + 1) (tL : Fin cfg0.N).isLt).1 := last_s c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  have hq : _ = (sumsAt m c ((tL : Fin cfg0.N).val + 1) (tL : Fin cfg0.N).isLt).2 := last_q c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  have ho : _ = outStep m c tL (Y 6) := last_out c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  unfold bodyAt0
  iintro ⟨⟨⟨HZ, HS, HQ⟩, Hg⟩, Ho, H0, H1, H2, H3, H4, H5, H6⟩
  iapply ((runLast c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2).2.2.2 Set.univ _)
  isplitl [H0]; · iexact H0
  isplitl [H1]; · iexact H1
  isplitl [H4]; · iexact H4
  isplitl [H5]; · iexact H5
  isplitl [HZ]; · iexact HZ
  isplitl [H6]; · iexact H6
  isplitl [HS]; · iexact HS
  isplitl [HQ]; · iexact HQ
  iintro ⟨H0, H1, H4, H5, HZ, H6, HS, HQ⟩
  isplitl [HZ HS HQ Hg]
  · isplitr [Hg]
    · isplitl [HZ]; · iexact HZ
      isplitl [HS]
      · iapply (owns_of_writes c _ _ _ _ hs) $$ HS
      · iapply (owns_of_writes c _ _ _ _ hq) $$ HQ
    · iexact Hg
  isplitl [Ho]; · iexact Ho
  isplitl [H0]
  · iexists _; isplitr
    swap
    · iexact H0
    · ipureintro; exact after_triv0 m c tL _ _
  isplitl [H1]
  · iexists _; isplitr
    swap
    · iexact H1
    · ipureintro; exact after_triv1 m c tL _ _
  isplitl [H2]
  · iexists _; isplitr
    swap
    · iexact H2
    · ipureintro; exact after_triv2 m c tL _ _
  isplitl [H3]
  · iexists _; isplitr
    swap
    · iexact H3
    · ipureintro; exact after_triv3 m c tL _ _
  isplitl [H4]
  · iexists _; isplitr
    swap
    · iexact H4
    · ipureintro; exact (after4 m c tL _ _).mpr rfl
  isplitl [H5]
  · iexists _; isplitr
    swap
    · iexact H5
    · ipureintro; exact (after5 m c tL _ _).mpr rfl
  iexists _; isplitr
  swap
  · iapply (owns_of_writes c _ _ _ _ ho) $$ H6
  · ipureintro
    exact (after6 m c tL _ _).mpr rfl

/-- The library's body obligation, at every point. -/
theorem body_obligation (c : Dev nD) : (rdat (F := F) m c).BodyObligation (defs₀ (F := F)) Variants.none () Set.univ := fun t Y hY => by
  rw [bigSep_W0, bigSep_W0]
  by_cases hz : t.val = 0
  · obtain rfl : t = t0 := Fin.ext hz
    exact sound_first m c Y hY
  · by_cases hl : t.val = 24
    · obtain rfl : t = tL := Fin.ext hl
      exact sound_last m c Y hY
    · exact sound_mid m c t hz hl Y hY

end Cert.Kernel.Hand

end
-- ==== Proof.KernelLaunch.lean ====
/-
  The region launched, for a pipeline two of whose windows read one array. The array adj is handed to the two
  row-half windows in two halves of its full share (both only read it); every other array is held whole. With
  that split the library's relational launch applies as for distinct arrays: the body obligation at every point,
  the scratch buffers and the generator register handed to the first point and taken back after the last, the
  arrays no window stages (gamma and beta before their reshapes) read back unchanged.
-/
import proofs.«102800_g85255100825815_cont_sun_c4_478_9_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before the first point is the class's. -/
theorem hin (c : Dev nD) : Pipeline.ΦA spec0 c ⊢ (rdat m c).Φ 0 := .rfl

/-- After the last point the invariant gives the scratch buffers back at some contents. -/
theorem hout (c : Dev nD) : (rdat m c).Φ (Fin.last cfg0.N) ⊢ Pipeline.ΦA spec0 c := by
  rw [show (rdat m c).Φ (Fin.last cfg0.N) = PhiS m c cfg0.N (Nat.le_refl _) from rfl, PhiS_pos m c _ _ (by decide), PhiA_eq]
  iintro ⟨⟨HZ, HS, HQ⟩, Hg⟩
  isplitr [Hg]
  · isplitl [HZ]; · iexists _; iexact HZ
    isplitl [HS]; · iexists _; iexact HS
    iexists _; iexact HQ
  · iexact Hg

/-- The distinct buffers behind the windows' arrays. -/
theorem arrRefs_eq : Finset.univ.image (Pipeline.arrRef spec0) = {main_arg0, main_arg1, main_arg2, main_call0_v0, main_call0_v1, main_v0} := by decide

/-- The buffers behind the arrays, each whole, make the windows' arrays at their shares: adj in two halves. -/
theorem arrays_shared (c : Dev nD) :
    (Pipeline.arrBufs (Ix := Unit) (Name := ℕ) (U := UR sig nD τ) (Lvl := ℕ) spec0 c (V m c) : sProp 𝕄) ⊢ (rdat m c).arrays (rdat m c).A := by
  unfold Pipeline.arrBufs Pipeline.RDat.arrays
  rw [arrRefs_eq, bigSep_W0]
  have hL : (bigSep ({main_arg0, main_arg1, main_arg2, main_call0_v0, main_call0_v1, main_v0} : Finset (Ref sig .tc))
        (fun b => (((c.tc : Thread nD τ).loc b) ↦{fullShare} V m c b : sProp 𝕄)))
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_call0_v0) ↦{fullShare} V m c main_call0_v0)
          ∗ (((c.tc : Thread nD τ).loc main_call0_v1) ↦{fullShare} V m c main_call0_v1) ∗ (((c.tc : Thread nD τ).loc main_v0) ↦{fullShare} V m c main_v0)) := by
    rw [bigSep_insert (by decide : main_arg0 ∉ ({main_arg1, main_arg2, main_call0_v0, main_call0_v1, main_v0} : Finset (Ref sig .tc))),
      bigSep_insert (by decide : main_arg1 ∉ ({main_arg2, main_call0_v0, main_call0_v1, main_v0} : Finset (Ref sig .tc))),
      bigSep_insert (by decide : main_arg2 ∉ ({main_call0_v0, main_call0_v1, main_v0} : Finset (Ref sig .tc))),
      bigSep_insert (by decide : main_call0_v0 ∉ ({main_call0_v1, main_v0} : Finset (Ref sig .tc))),
      bigSep_insert (by decide : main_call0_v1 ∉ ({main_v0} : Finset (Ref sig .tc))), bigSep_singleton]
    rfl
  rw [hL]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ,
    show (cfg0.win 6).arr.view.set = Finset.univ from (arr_whole0 6).set_eq_univ]
  iintro ⟨H0, H1, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

-- the launch's implicit arguments are found by unifying its conclusion with this one, which takes unfolding plain
-- definitions in a metavariable's type
set_option backward.isDefEq.respectTransparency.types false in
set_option maxHeartbeats 1000000 in
/-- Every weakly fair execution of the host program terminates without a fault; every window's array then holds what the
    relational data allow after the write-backs, and every other unscoped buffer what the region found in it. -/
theorem run_main : θ_run defs (onTc (τ := τ) (main (F := F))) (s₀ m ρ) (Pipeline.RDat.FramePost cfg0 (rdat m) (V m)) := by
  classical
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 (rdat m)) () cellOf_inj 0 winFacts₀0
    (Pipeline.OwnSemFacts.none spec0) (Pipeline.PreFacts.none _) emb₁ defs₀ Variants.none m ρ main
    (fun c => by rw [Pipeline.RDat.familyOf_self]; exact body_obligation m c)
    block_pos0 arr_whole0 stage_whole0 (fun c t => by rw [Pipeline.RDat.familyOf_self]; rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_shared m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self]
      exact (show _ ⊢ Pipeline.ΦA spec0 c by
        unfold Pipeline.ΦA; iintro ⟨Hp, -, Hr⟩
        isplitl [Hr] <;> iassumption).trans (hin m c))
    (hout := fun c => by
      rw [Pipeline.RDat.familyOf_self]
      exact (hout m c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (h c).2.1 (h c).2.2⟩)

/-- The frame: every argument array ends as launched. adj, x and W are input windows' arrays, never written back;
    gamma and beta are staged by no window (their reshapes are) and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 2 rfl _) _) ((h c).1 2)).trans ((A_eq m c 2).trans (V_main_arg1 m c)),
     (Eq.mp (congrFun ((rdat m c).ArrAt_in 3 rfl _) _) ((h c).1 3)).trans ((A_eq m c 3).trans (V_main_arg2 m c)),
     ((h c).2 main_arg3 (Pipeline.mem_restRefs_of main_arg3 rfl (by decide))).trans (V_main_arg3 m c),
     ((h c).2 main_arg4 (Pipeline.mem_restRefs_of main_arg4 rfl (by decide))).trans (V_main_arg4 m c)⟩) (run_main m ρ)

end Cert.Kernel.Hand

end
-- ==== Proof.KernelIdealKit.lean ====
/-
  The graph-convolution kernel's region, seen from the host program: what the TensorCore's buffers hold when the
  region is entered (the two reshapes of gamma and beta have run; the five argument arrays are untouched), the
  two conditions the body branches on decided over the 25 grid points (the first point initialises z = x·W and
  the two running sums, the last point normalises), and the staging and scratch memrefs the body is called with.
-/
import proofs.«102800_g85255100825815_cont_sun_c4_478_9_alg».proof.Proof.Gen.KernelIdeal.Launch
import proofs.«102800_g85255100825815_cont_sun_c4_478_9_alg».proof.Proof.Gen.KernelIdeal.Skeleton
import proofs.«102800_g85255100825815_cont_sun_c4_478_9_alg».proof.Proof.Gen.KernelIdeal.Points
import Idealize.ShloMosaic.Lib.Pipeline.FrameBody
import Idealize.ShloMosaic.Lib.Pipeline.Frame
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program up to the region -/

/-- Core `c`'s buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The host program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_arg (c : Dev nD) (b : Ref sig .tc) (h0 : b ≠ main_call0_v0) (h1 : b ≠ main_call0_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The body's two branches, over the grid -/

/-- The first branch (initialise) is taken exactly when the grid coordinate is 0. -/
abbrev condFirst (i : grid0.Coords) : Prop :=
  (Scalar.cmpi .ne (Scalar.extui (Scalar.cmpi .eq (BitVec.ofNat 32 (i 0).val) 0#32)) 0#32) = 1#1
/-- The second branch (normalise) is taken exactly when the grid coordinate is 24. -/
abbrev condLast (i : grid0.Coords) : Prop :=
  (Scalar.cmpi .ne (Scalar.extui (Scalar.cmpi .eq (BitVec.ofNat 32 (i 0).val) 24#32)) 0#32) = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)
/-- The grid coordinate of point `t` is `t`. -/
theorem coords_val : ∀ t : Fin cfg0.N, (grid0.coords t 0).val = t.val :=
  (by decide +kernel : ∀ t : Fin grid0.N, (grid0.coords t 0).val = t.val)

/-! ## The memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x128 .f32 := win0_6.stage (cfg0.slots t 6)
abbrev hs6 (t : Fin cfg0.N) : (ms6 t).IsWhole := hstage0_6 ((cfg0.slots t 6).cast nbuf0_6)
/-- The three scratch buffers: z = x·W, the running column sums, the running column sums of squares. -/
abbrev scZ : Memref sig .tc .vmem S10000x128 .f32 := Memref.whole cc0_scratch0
abbrev scS : Memref sig .tc .vmem S1x128 .f32 := Memref.whole cc0_scratch1
abbrev scQ : Memref sig .tc .vmem S1x128 .f32 := Memref.whole cc0_scratch2
theorem hscZ : (scZ).IsWhole := Memref.isWhole_whole _
theorem hscS : (scS).IsWhole := Memref.isWhole_whole _
theorem hscQ : (scQ).IsWhole := Memref.isWhole_whole _

/-- The region's class invariant with the three scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scZ, scS, scQ, owns_whole]; try rfl

end Cert.KernelIdeal.Hand

end
-- ==== Proof.KernelIdealRunFirst.lean ====
/-
  The body at the first grid point (the initialising branch).
-/
import proofs.«102800_g85255100825815_cont_sun_c4_478_9_alg».proof.Proof.KernelIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first grid point (the initialising branch taken, the normalising one not): from the whole of x (`X`) and W (`Wm`) the body stores z = x·W into its scratch, zeroes the two running sums, then does what every point does — stores the two 200-row blocks of y = adj·z into the resident output block and adds their column sums and column sums of squares to the running sums. The lists are the stores each written buffer receives, newest first. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : condFirst i) (hc1 : ¬condLast i)
    (x1 : Vec F S200x10000 .f32) (x2 : Vec F S200x10000 .f32) (X : Vec F S10000x128 .f32) (Wm : Vec F S128x128 .f32) (Y : Vec F S10000x128 .f32) (Z : Vec F S10000x128 .f32) (s : Vec F S1x128 .f32) (q : Vec F S1x128 .f32) :
    Σ' (L7 : List (View.Piece (Elt F) S10000x128 .f32)) (L8 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare X ∗ owns (c : Thread nD τ) arg4 fullShare Wm ∗ owns (c : Thread nD τ) arg7 fullShare Y ∗ owns (c : Thread nD τ) arg8 fullShare Z ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg3 fullShare X ∗ owns (c : Thread nD τ) arg4 fullShare Wm ∗ (arg7.view.loc (c : Thread nD τ) ↦[arg7.view.set]{fullShare} arg7.view.writes (Elt F) (harg7.unread Y) L7) ∗ (arg8.view.loc (c : Thread nD τ) ↦[arg8.view.set]{fullShare} arg8.view.writes (Elt F) (harg8.unread Z) L8) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexact H7
    isplitl [H8]
    · iexact H8
    isplitl [H9]
    · iexact H9
    iexact H10

end Cert.KernelIdeal.Hand

end
-- ==== Proof.KernelIdealRunMid.lean ====
/-
  The body at a middle grid point (neither branch taken).
-/
import proofs.«102800_g85255100825815_cont_sun_c4_478_9_alg».proof.Proof.KernelIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point that is neither the first nor the last: from the two row blocks of adj (`x1`, `x2`), z in its scratch (`Z`) and the running sums (`s`, `q`), the body stores the two 200-row blocks of y = adj·z into the resident output block at the point's two row offsets and adds the blocks' column sums and column sums of squares to the running sums; the blocks of adj and z are left as found. The lists are the stores each written buffer receives, newest first. -/
noncomputable def runMid (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : ¬condLast i)
    (x1 : Vec F S200x10000 .f32) (x2 : Vec F S200x10000 .f32) (Z : Vec F S10000x128 .f32) (Y : Vec F S10000x128 .f32) (s : Vec F S1x128 .f32) (q : Vec F S1x128 .f32) :
    Σ' (L7 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg8 fullShare Z ∗ owns (c : Thread nD τ) arg7 fullShare Y ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg8 fullShare Z ∗ (arg7.view.loc (c : Thread nD τ) ↦[arg7.view.set]{fullShare} arg7.view.writes (Elt F) (harg7.unread Y) L7) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f8, %hf8, H8⟩, ⟨%f7, %hf7, H7⟩, ⟨%f9, %hf9, H9⟩, ⟨%f10, %hf10, H10⟩, Hk⟩
    obtain rfl := harg1.eq_unread hf1; obtain rfl := harg2.eq_unread hf2; obtain rfl := harg8.eq_unread hf8; obtain rfl := harg7.eq_unread hf7; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H8]
    · iexists _; isplitr; · ipureintro; exact harg8.read_unread _
      iexact H8
    isplitl [H7]
    · iexact H7
    isplitl [H9]
    · iexact H9
    iexact H10

end Cert.KernelIdeal.Hand

end
-- ==== Proof.KernelIdealRunLast.lean ====
/-
  The body at the last grid point (the normalising branch).
-/
import proofs.«102800_g85255100825815_cont_sun_c4_478_9_alg».proof.Proof.KernelIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last grid point (the normalising branch taken, the initialising one not): after the point's two block stores and the update of the running sums, the body reads the sums, gamma (`g`) and beta (`b`) and the whole resident output block, and stores the normalised, rectified block over it. The lists are the stores each written buffer receives, newest first. -/
noncomputable def runLast (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : condLast i)
    (x1 : Vec F S200x10000 .f32) (x2 : Vec F S200x10000 .f32) (g : Vec F S1x128 .f32) (b : Vec F S1x128 .f32) (Z : Vec F S10000x128 .f32) (Y : Vec F S10000x128 .f32) (s : Vec F S1x128 .f32) (q : Vec F S1x128 .f32) :
    Σ' (L7 : List (View.Piece (Elt F) S10000x128 .f32)) (L9 : List (View.Piece (Elt F) S1x128 .f32)), { L10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg5 fullShare g ∗ owns (c : Thread nD τ) arg6 fullShare b ∗ owns (c : Thread nD τ) arg8 fullShare Z ∗ owns (c : Thread nD τ) arg7 fullShare Y ∗ owns (c : Thread nD τ) arg9 fullShare s ∗ owns (c : Thread nD τ) arg10 fullShare q
            ∗ (iprop(owns (c : Thread nD τ) arg1 fullShare x1 ∗ owns (c : Thread nD τ) arg2 fullShare x2 ∗ owns (c : Thread nD τ) arg5 fullShare g ∗ owns (c : Thread nD τ) arg6 fullShare b ∗ owns (c : Thread nD τ) arg8 fullShare Z ∗ (arg7.view.loc (c : Thread nD τ) ↦[arg7.view.set]{fullShare} arg7.view.writes (Elt F) (harg7.unread Y) L7) ∗ (arg9.view.loc (c : Thread nD τ) ↦[arg9.view.set]{fullShare} arg9.view.writes (Elt F) (harg9.unread s) L9) ∗ (arg10.view.loc (c : Thread nD τ) ↦[arg10.view.set]{fullShare} arg10.view.writes (Elt F) (harg10.unread q) L10)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f5, %hf5, H5⟩, ⟨%f6, %hf6, H6⟩, ⟨%f8, %hf8, H8⟩, ⟨%f7, %hf7, H7⟩, ⟨%f9, %hf9, H9⟩, ⟨%f10, %hf10, H10⟩, Hk⟩
    obtain rfl := harg1.eq_unread hf1; obtain rfl := harg2.eq_unread hf2; obtain rfl := harg5.eq_unread hf5; obtain rfl := harg6.eq_unread hf6; obtain rfl := harg8.eq_unread hf8; obtain rfl := harg7.eq_unread hf7; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H8]
    · iexists _; isplitr; · ipureintro; exact harg8.read_unread _
      iexact H8
    isplitl [H7]
    · iexact H7
    isplitl [H9]
    · iexact H9
    iexact H10

end Cert.KernelIdeal.Hand

end
-- ==== Proof.KernelIdealPieces.lean ====
/-
  What the body's stores leave, read back as plain functions. A whole-buffer load of what a whole memref holds is
  that function; a whole-buffer store leaves its payload; a store of 200 whole rows at row offset o leaves its
  payload on rows [o, o+200) and the older contents elsewhere (`rowsUpd`). With these, each case's written
  buffers are stated over the payload names: z = x·W, the two y blocks, and the running column sums.
-/
import proofs.«102800_g85255100825815_cont_sun_c4_478_9_alg».proof.Proof.KernelIdealRunFirst
import proofs.«102800_g85255100825815_cont_sun_c4_478_9_alg».proof.Proof.KernelIdealRunMid
import proofs.«102800_g85255100825815_cont_sun_c4_478_9_alg».proof.Proof.KernelIdealRunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-- A store through the whole-shape rectangle at zero offsets, newest, leaves its payload. -/
theorem read_store_whole {S : Shape} {κ : Kind} {sp : Space} (v : View sig κ sp S .f32) (f : v.ty.Contents (Elt F))
    {off : Fin S.rank → ℕ} (hz : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w :=
  funext fun y => View.read_writes_cons_unit_of_mem v f inb w L y y hz (fun a => (Nat.zero_add _).symm)

/-- Rows [o, o+200) of a [10000,128] table replaced by a [200,128] block, the rest kept. -/
def rowsUpd (o : ℕ) (P : Vec F S200x128 .f32) (Y : Vec F S10000x128 .f32) : Vec F S10000x128 .f32 := fun y =>
  if h : o ≤ (y (0 : Fin 2)).val ∧ (y (0 : Fin 2)).val < o + 200 then
    P (Rect.unitLocal (s := S10000x128) (off := ![o, 0]) (size := S200x128.size) y (Rect.unit_rows_mem y rfl rfl h))
  else Y y

/-- A store of 200 whole rows at a row offset in closed form, newest, read back. -/
theorem read_store_rows {κ : Kind} {sp : Space} (v : View sig κ sp S10000x128 .f32) (f : v.ty.Contents (Elt F))
    {off : Fin 2 → ℕ} {o : ℕ} (inb : ∀ a : Fin 2, off a + S200x128.size a ≤ S10000x128.size a) (hoff : off = ![o, 0])
    (w : Vec F S200x128 .f32) (L : List (View.Piece (Elt F) S10000x128 .f32)) :
    v.read (Elt F) (v.writes (Elt F) f ((⟨Rect.unit (s := S10000x128) off S200x128.size inb, w⟩ : View.Piece (Elt F) S10000x128 .f32) :: L))
      = rowsUpd o w (v.read (Elt F) (v.writes (Elt F) f L)) :=
  funext fun y => View.read_writes_cons_rows v f inb w L y hoff rfl rfl

/-! ## A middle point -/

section Mid
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : ¬condLast i)
  (x1 x2 : Vec F S200x10000 .f32) (Z Y : Vec F S10000x128 .f32) (s q : Vec F S1x128 .f32)

theorem mid_out :
    arg7.view.read (Elt F) (arg7.view.writes (Elt F) (harg7.unread Y) (runMid c i arg1 harg1 arg2 harg2 arg3 harg3 arg4 harg4 arg5 harg5 arg6 harg6 arg7 harg7 arg8 harg8 arg9 harg9 arg10 harg10 hc0 hc1 x1 x2 Z Y s q).1)
      = rowsUpd (200 * (i 0).val + 5000) (k0_pay7 x2 Z) (rowsUpd (200 * (i 0).val) (k0_pay6 x1 Z) Y) := by
  unfold runMid; dsimp only
  simp only [View.readAt_eq_ld, harg1.read_unread, harg2.read_unread, harg8.read_unread, View.ld_unit_zero (S := S200x10000) hz2, View.ld_unit_zero (S := S10000x128) hz2]
  rw [read_store_rows _ _ (k0_off2_inb i) (k0_off2_eq i), read_store_rows _ _ (k0_off1_inb i) (k0_off1_eq i), View.writes_nil, harg7.read_unread]

theorem mid_s :
    arg9.view.read (Elt F) (arg9.view.writes (Elt F) (harg9.unread s) (runMid c i arg1 harg1 arg2 harg2 arg3 harg3 arg4 harg4 arg5 harg5 arg6 harg6 arg7 harg7 arg8 harg8 arg9 harg9 arg10 harg10 hc0 hc1 x1 x2 Z Y s q).2.1)
      = k0_pay8 x1 Z x2 Z s := by
  unfold runMid; dsimp only
  simp only [View.readAt_eq_ld, harg1.read_unread, harg2.read_unread, harg8.read_unread, harg9.read_unread, View.ld_unit_zero (S := S200x10000) hz2, View.ld_unit_zero (S := S10000x128) hz2, View.ld_unit_zero (S := S1x128) hz2]
  exact read_store_whole _ _ hz2 _ _ _

theorem mid_q :
    arg10.view.read (Elt F) (arg10.view.writes (Elt F) (harg10.unread q) (runMid c i arg1 harg1 arg2 harg2 arg3 harg3 arg4 harg4 arg5 harg5 arg6 harg6 arg7 harg7 arg8 harg8 arg9 harg9 arg10 harg10 hc0 hc1 x1 x2 Z Y s q).2.2.1)
      = k0_pay1 (k0_pay7 x2 Z) q (k0_pay9 x1 Z) := by
  unfold runMid; dsimp only; sl_unfold_run_names
  simp only [View.readAt_eq_ld, harg1.read_unread, harg2.read_unread, harg8.read_unread, harg10.read_unread, View.ld_unit_zero (S := S200x10000) hz2, View.ld_unit_zero (S := S10000x128) hz2, View.ld_unit_zero (S := S1x128) hz2]
  exact read_store_whole _ _ hz2 _ _ _

end Mid

/-! ## The first point -/

section First
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : condFirst i) (hc1 : ¬condLast i)
  (x1 x2 : Vec F S200x10000 .f32) (X : Vec F S10000x128 .f32) (Wm : Vec F S128x128 .f32) (Y Z : Vec F S10000x128 .f32) (s q : Vec F S1x128 .f32)

theorem first_z :
    arg8.view.read (Elt F) (arg8.view.writes (Elt F) (harg8.unread Z) (runFirst c i arg1 harg1 arg2 harg2 arg3 harg3 arg4 harg4 arg5 harg5 arg6 harg6 arg7 harg7 arg8 harg8 arg9 harg9 arg10 harg10 hc0 hc1 x1 x2 X Wm Y Z s q).2.1)
      = k0_pay3 X Wm := by
  unfold runFirst; dsimp only; sl_unfold_run_names
  simp only [View.readAt_eq_ld, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem first_out :
    arg7.view.read (Elt F) (arg7.view.writes (Elt F) (harg7.unread Y) (runFirst c i arg1 harg1 arg2 harg2 arg3 harg3 arg4 harg4 arg5 harg5 arg6 harg6 arg7 harg7 arg8 harg8 arg9 harg9 arg10 harg10 hc0 hc1 x1 x2 X Wm Y Z s q).1)
      = rowsUpd (200 * (i 0).val + 5000) (k0_pay7 x2 (k0_pay3 X Wm)) (rowsUpd (200 * (i 0).val) (k0_pay6 x1 (k0_pay3 X Wm)) Y) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  rw [read_store_rows _ _ (k0_off2_inb i) (k0_off2_eq i), read_store_rows _ _ (k0_off1_inb i) (k0_off1_eq i), View.writes_nil, harg7.read_unread]

theorem first_s :
    arg9.view.read (Elt F) (arg9.view.writes (Elt F) (harg9.unread s) (runFirst c i arg1 harg1 arg2 harg2 arg3 harg3 arg4 harg4 arg5 harg5 arg6 harg6 arg7 harg7 arg8 harg8 arg9 harg9 arg10 harg10 hc0 hc1 x1 x2 X Wm Y Z s q).2.2.1)
      = k0_pay8 x1 (k0_pay3 X Wm) x2 (k0_pay3 X Wm) (k0_pay4 (F := F)) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem first_q :
    arg10.view.read (Elt F) (arg10.view.writes (Elt F) (harg10.unread q) (runFirst c i arg1 harg1 arg2 harg2 arg3 harg3 arg4 harg4 arg5 harg5 arg6 harg6 arg7 harg7 arg8 harg8 arg9 harg9 arg10 harg10 hc0 hc1 x1 x2 X Wm Y Z s q).2.2.2.1)
      = k0_pay1 (k0_pay7 x2 (k0_pay3 X Wm)) (k0_pay5 (F := F)) (k0_pay9 x1 (k0_pay3 X Wm)) := by
  unfold runFirst; dsimp only; sl_unfold_run_names
  simp only [View.readAt_eq_ld, harg1.read_unread, harg2.read_unread, harg3.read_unread, harg4.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

end First

/-! ## The last point -/

section Last
variable (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S10000x128 .f32) (harg8 : arg8.IsWhole) (arg9 : Memref sig .tc .vmem S1x128 .f32) (harg9 : arg9.IsWhole) (arg10 : Memref sig .tc .vmem S1x128 .f32) (harg10 : arg10.IsWhole) (hc0 : ¬condFirst i) (hc1 : condLast i)
  (x1 x2 : Vec F S200x10000 .f32) (g b : Vec F S1x128 .f32) (Z Y : Vec F S10000x128 .f32) (s q : Vec F S1x128 .f32)

theorem last_s :
    arg9.view.read (Elt F) (arg9.view.writes (Elt F) (harg9.unread s) (runLast c i arg1 harg1 arg2 harg2 arg3 harg3 arg4 harg4 arg5 harg5 arg6 harg6 arg7 harg7 arg8 harg8 arg9 harg9 arg10 harg10 hc0 hc1 x1 x2 g b Z Y s q).2.1)
      = k0_pay8 x1 Z x2 Z s := by
  unfold runLast; dsimp only; sl_unfold_run_names
  simp only [View.readAt_eq_ld, harg1.read_unread, harg2.read_unread, harg8.read_unread, harg9.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem last_q :
    arg10.view.read (Elt F) (arg10.view.writes (Elt F) (harg10.unread q) (runLast c i arg1 harg1 arg2 harg2 arg3 harg3 arg4 harg4 arg5 harg5 arg6 harg6 arg7 harg7 arg8 harg8 arg9 harg9 arg10 harg10 hc0 hc1 x1 x2 g b Z Y s q).2.2.1)
      = k0_pay1 (k0_pay7 x2 Z) q (k0_pay9 x1 Z) := by
  unfold runLast; dsimp only; sl_unfold_run_names
  simp only [View.readAt_eq_ld, harg1.read_unread, harg2.read_unread, harg8.read_unread, harg10.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  exact read_store_whole _ _ hz2 _ _ _

theorem last_out :
    arg7.view.read (Elt F) (arg7.view.writes (Elt F) (harg7.unread Y) (runLast c i arg1 harg1 arg2 harg2 arg3 harg3 arg4 harg4 arg5 harg5 arg6 harg6 arg7 harg7 arg8 harg8 arg9 harg9 arg10 harg10 hc0 hc1 x1 x2 g b Z Y s q).1)
      = k0_pay2 (k0_pay8 x1 Z x2 Z s) (k0_pay1 (k0_pay7 x2 Z) q (k0_pay9 x1 Z)) g b
          (rowsUpd (200 * (i 0).val + 5000) (k0_pay7 x2 Z) (rowsUpd (200 * (i 0).val) (k0_pay6 x1 Z) Y)) := by
  unfold runLast; dsimp only; sl_unfold_run_names
  simp only [View.readAt_eq_ld, harg1.read_unread, harg2.read_unread, harg5.read_unread, harg6.read_unread, harg8.read_unread, harg9.read_unread, harg10.read_unread, View.ld_unit_zero (S := S200x10000) hz2, View.ld_unit_zero (S := S10000x128) hz2, View.ld_unit_zero (S := S128x128) hz2, View.ld_unit_zero (S := S1x128) hz2, View.readCov_unit_zero (S := S10000x128) _ hz2, View.readCov_unit_zero (S := S1x128) _ hz2]
  rw [read_store_whole _ _ hz2, read_store_rows _ _ (k0_off2_inb i) (k0_off2_eq i), read_store_rows _ _ (k0_off1_inb i) (k0_off1_eq i), View.writes_nil, harg7.read_unread]

end Last

end Cert.KernelIdeal.Hand

end
-- ==== Proof.KernelIdealData.lean ====
/-
  The region's proof data. Every input window's buffer holds its block of the array whenever the body reads it:
  the two adj windows are fetched at every point, x and W are read only at the first point (where they are
  fetched), and gamma and beta, fetched once, are left as found by every point. The three scratch buffers carry
  z = x·W and the two running column sums from the first point on. The output window is resident for the whole
  grid: a point overwrites its two 200-row ranges and keeps every other row, so what it leaves is stated
  RELATIVE to what it was handed; the last point then normalises the whole block.
-/
import proofs.«102800_g85255100825815_cont_sun_c4_478_9_alg».proof.Proof.KernelIdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, z, the y blocks and the running sums -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- z = x·W, as the first point stores it. -/
def zAt (c : Dev nD) : Vec F S10000x128 .f32 := k0_pay3 (iblk m c 2 t0) (iblk m c 3 t0)
/-- The two 200-row blocks of y = adj·z that point `t` computes. -/
def yA (c : Dev nD) (t : Fin cfg0.N) : Vec F S200x128 .f32 := k0_pay6 (iblk m c 0 t) (zAt m c)
def yB (c : Dev nD) (t : Fin cfg0.N) : Vec F S200x128 .f32 := k0_pay7 (iblk m c 1 t) (zAt m c)

/-- The running column sums and column sums of squares before point `n`: zero, then each point adds its two blocks'. -/
def sumsAt (c : Dev nD) : (n : ℕ) → n ≤ cfg0.N → Vec F S1x128 .f32 × Vec F S1x128 .f32
  | 0, _ => (k0_pay4, k0_pay5)
  | n + 1, hn =>
    (k0_pay8 (iblk m c 0 ⟨n, hn⟩) (zAt m c) (iblk m c 1 ⟨n, hn⟩) (zAt m c) (sumsAt c n (Nat.le_of_lt hn)).1,
     k0_pay1 (yB m c ⟨n, hn⟩) (sumsAt c n (Nat.le_of_lt hn)).2 (k0_pay9 (iblk m c 0 ⟨n, hn⟩) (zAt m c)))

/-- What point `t` makes of the resident output block `Y`: its two row ranges overwritten. -/
def rowsStep (c : Dev nD) (t : Fin cfg0.N) (Y : Vec F S10000x128 .f32) : Vec F S10000x128 .f32 :=
  rowsUpd (200 * (grid0.coords t 0).val + 5000) (yB m c t) (rowsUpd (200 * (grid0.coords t 0).val) (yA m c t) Y)

/-- What point `t` leaves in the output block: the step, and at the last point the normalisation of the whole block. -/
def outStep (c : Dev nD) (t : Fin cfg0.N) (Y : Vec F S10000x128 .f32) : Vec F S10000x128 .f32 :=
  if t.val = 24 then
    k0_pay2 (sumsAt m c cfg0.N (Nat.le_refl _)).1 (sumsAt m c cfg0.N (Nat.le_refl _)).2 (iblk m c 4 t0) (iblk m c 5 t0) (rowsStep m c t Y)
  else rowsStep m c t Y

/-! ## The invariant between points -/

/-- Before the first point the scratch buffers hold anything; afterwards z and the running sums. -/
def PhiS (c : Dev nD) : (n : ℕ) → n ≤ cfg0.N → sProp 𝕄
  | 0, _ => Pipeline.ΦA spec0 c
  | n + 1, hn => iprop(iprop(owns (c : Thread nD τ) scZ fullShare (zAt m c) ∗ owns (c : Thread nD τ) scS fullShare (sumsAt m c (n + 1) hn).1 ∗ owns (c : Thread nD τ) scQ fullShare (sumsAt m c (n + 1) hn).2) ∗ (∃ r, prngReg c r))

theorem PhiS_pos (c : Dev nD) (n : ℕ) (h : n ≤ cfg0.N) (hz : n ≠ 0) :
    PhiS m c n h = iprop(iprop(owns (c : Thread nD τ) scZ fullShare (zAt m c) ∗ owns (c : Thread nD τ) scS fullShare (sumsAt m c n h).1 ∗ owns (c : Thread nD τ) scQ fullShare (sumsAt m c n h).2) ∗ (∃ r, prngReg c r)) := by
  cases n with
  | zero => exact absurd rfl hz
  | succ n => rfl

/-! ## The proof data -/

/-- The relational proof data of the one pipeline on core `c`. The two adj windows share their array, each holding half of it. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ _ => True
    | ⟨2, _⟩ => fun _ _ => True
    | ⟨3, _⟩ => fun _ _ => True
    | ⟨4, _⟩ => fun Y X => X = Y
    | ⟨5, _⟩ => fun Y X => X = Y
    | ⟨6, _⟩ => fun Y X => X = outStep m c t Y
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (rdat m c).A w = V m c (Pipeline.arrRef spec0 w) := by
  dsimp only [rdat]

theorem after4 (c : Dev nD) (t : Fin cfg0.N) (Y X) : (rdat m c).after 4 t Y X ↔ X = Y := by dsimp only [rdat]; exact Iff.rfl
theorem after5 (c : Dev nD) (t : Fin cfg0.N) (Y X) : (rdat m c).after 5 t Y X ↔ X = Y := by dsimp only [rdat]; exact Iff.rfl
theorem after6 (c : Dev nD) (t : Fin cfg0.N) (Y X) : (rdat m c).after 6 t Y X ↔ X = outStep m c t Y := by dsimp only [rdat]; exact Iff.rfl

theorem hN25 : cfg0.N = 25 := N_0

/-! ## What the body finds in the input windows -/

theorem finds0 (c : Dev nD) (t : Fin cfg0.N) (X) (h : (rdat m c).Finds 0 t X) : X = iblk m c 0 t := by
  obtain ⟨d, rfl⟩ := ((rdat m c).finds_of_fetch (fetch0_0 t) X).mp h
  unfold RDat.fetched RDat.blockOf iblk; rfl
theorem finds1 (c : Dev nD) (t : Fin cfg0.N) (X) (h : (rdat m c).Finds 1 t X) : X = iblk m c 1 t := by
  obtain ⟨d, rfl⟩ := ((rdat m c).finds_of_fetch (fetch0_1 t) X).mp h
  unfold RDat.fetched RDat.blockOf iblk; rfl
theorem finds2 (c : Dev nD) (X) (h : (rdat m c).Finds 2 t0 X) : X = iblk m c 2 t0 := by
  obtain ⟨d, rfl⟩ := ((rdat m c).finds_of_fetch ((fetch0_2 t0).mpr rfl) X).mp h
  unfold RDat.fetched RDat.blockOf iblk; rfl
theorem finds3 (c : Dev nD) (X) (h : (rdat m c).Finds 3 t0 X) : X = iblk m c 3 t0 := by
  obtain ⟨d, rfl⟩ := ((rdat m c).finds_of_fetch ((fetch0_3 t0).mpr rfl) X).mp h
  unfold RDat.fetched RDat.blockOf iblk; rfl

/-- gamma's buffer is fetched at the first point and left as found by every point: it holds gamma's block throughout. -/
theorem finds4 (c : Dev nD) : ∀ (n : ℕ) (hn : n < cfg0.N) (X), (rdat m c).Finds 4 ⟨n, hn⟩ X → X = iblk m c 4 t0
  | 0, hn, X, h => by
    obtain ⟨d, rfl⟩ := ((rdat m c).finds_of_fetch ((fetch0_4 ⟨0, hn⟩).mpr rfl) X).mp h
    unfold RDat.fetched RDat.blockOf iblk; rfl
  | n + 1, hn, X, h => by
    have hN : n + 1 < 25 := lt_of_lt_of_eq hn hN25
    have hf : (cfg0.win 4).fetch ⟨n + 1, hn⟩ = false := Bool.eq_false_iff.mpr fun h => by
      have := (fetch0_4 _).mp h; dsimp only at this; omega
    rcases ((rdat m c).finds_of_pos hf (by simp) X).mp h with hfl | ⟨Y, hY, hYX⟩
    · exact absurd hfl (by simp [Window.flush])
    · rw [(after4 m c _ Y X).mp hYX]
      exact finds4 c n (Nat.lt_of_succ_lt hn) Y hY
theorem finds5 (c : Dev nD) : ∀ (n : ℕ) (hn : n < cfg0.N) (X), (rdat m c).Finds 5 ⟨n, hn⟩ X → X = iblk m c 5 t0
  | 0, hn, X, h => by
    obtain ⟨d, rfl⟩ := ((rdat m c).finds_of_fetch ((fetch0_5 ⟨0, hn⟩).mpr rfl) X).mp h
    unfold RDat.fetched RDat.blockOf iblk; rfl
  | n + 1, hn, X, h => by
    have hN : n + 1 < 25 := lt_of_lt_of_eq hn hN25
    have hf : (cfg0.win 5).fetch ⟨n + 1, hn⟩ = false := Bool.eq_false_iff.mpr fun h => by
      have := (fetch0_5 _).mp h; dsimp only at this; omega
    rcases ((rdat m c).finds_of_pos hf (by simp) X).mp h with hfl | ⟨Y, hY, hYX⟩
    · exact absurd hfl (by simp [Window.flush])
    · rw [(after5 m c _ Y X).mp hYX]
      exact finds5 c n (Nat.lt_of_succ_lt hn) Y hY

end Cert.KernelIdeal.Hand

end
-- ==== Proof.KernelIdealBody.lean ====
/-
  The body obligation: at each grid point, from the invariant and the windows' buffers as the body may find them,
  the body runs to the next point's invariant and leaves each buffer in the data's relation to what it was handed.
  Three cases by the point: the first (z and the sums initialised), a middle one, and the last (the block normalised).
-/
import proofs.«102800_g85255100825815_cont_sun_c4_478_9_alg».proof.Proof.KernelIdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem after_triv0 (c : Dev nD) (t : Fin cfg0.N) (Y X) : (rdat m c).after 0 t Y X := by dsimp only [rdat]
theorem after_triv1 (c : Dev nD) (t : Fin cfg0.N) (Y X) : (rdat m c).after 1 t Y X := by dsimp only [rdat]
theorem after_triv2 (c : Dev nD) (t : Fin cfg0.N) (Y X) : (rdat m c).after 2 t Y X := by dsimp only [rdat]
theorem after_triv3 (c : Dev nD) (t : Fin cfg0.N) (Y X) : (rdat m c).after 3 t Y X := by dsimp only [rdat]

/-- A whole memref whose buffer received a list of stores is owned at what the stores read back as. -/
theorem owns_of_writes {S : Shape} (c : Dev nD) (arg : Memref sig .tc .vmem S .f32) (f : arg.view.ty.Contents (Elt F))
    (L : List (View.Piece (Elt F) S .f32)) (X : Vec F S .f32) (h : arg.view.read (Elt F) (arg.view.writes (Elt F) f L) = X) :
    (arg.view.loc (c : Thread nD τ) ↦[arg.view.set]{fullShare} arg.view.writes (Elt F) f L : sProp 𝕄) ⊢ owns (c : Thread nD τ) arg fullShare X := by
  unfold owns; iintro H; iexists _; isplitr
  · ipureintro; exact h
  · iexact H

theorem sumsAt_succ (c : Dev nD) (t : Fin cfg0.N) :
    sumsAt m c (t.val + 1) t.isLt
      = (k0_pay8 (iblk m c 0 t) (zAt m c) (iblk m c 1 t) (zAt m c) (sumsAt m c t.val (Nat.le_of_lt t.isLt)).1,
         k0_pay1 (yB m c t) (sumsAt m c t.val (Nat.le_of_lt t.isLt)).2 (k0_pay9 (iblk m c 0 t) (zAt m c))) := rfl

theorem PhiS_succ (c : Dev nD) (t : Fin cfg0.N) :
    (rdat m c).Φ t.succ = iprop(iprop(owns (c : Thread nD τ) scZ fullShare (zAt m c) ∗ owns (c : Thread nD τ) scS fullShare (sumsAt m c (t.val + 1) t.isLt).1 ∗ owns (c : Thread nD τ) scQ fullShare (sumsAt m c (t.val + 1) t.isLt).2) ∗ (∃ r, prngReg c r)) := rfl

set_option maxHeartbeats 2000000 in
theorem sound_mid (c : Dev nD) (t : Fin cfg0.N) (hz : t.val ≠ 0) (hl : t.val ≠ 24)
    (Y : (w : Fin cfg0.W) → (cfg0.win w).block.Idx → Elt F (cfg0.win w).elt) (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6))
      ⊢ wp frame (wpE (defs₀ (F := F)) Variants.none c none) Set.univ (bodyAt0 t) (fun _ => iprop((rdat m c).Φ t.succ ∗ (rdat m c).owesAt () t.succ
          ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X))) := by
  have hc0 : ¬condFirst (grid0.coords t) := fun h => hz ((hcondFirst t).mp h)
  have hc1 : ¬condLast (grid0.coords t) := fun h => hl ((hcondLast t).mp h)
  have e0 := finds0 m c t _ (hY 0)
  have e1 := finds1 m c t _ (hY 1)
  rw [show (rdat m c).Φ t.castSucc = PhiS m c t.val (Nat.le_of_lt t.isLt) from rfl, PhiS_pos m c _ _ hz, PhiS_succ,
    show (rdat m c).owesAt () t.succ = (rdat m c).owesAt () t.castSucc from rfl, e0, e1, sumsAt_succ]
  unfold bodyAt0
  iintro ⟨⟨⟨HZ, HS, HQ⟩, Hg⟩, Ho, H0, H1, H2, H3, H4, H5, H6⟩
  iapply ((runMid c (grid0.coords t) _ _ _ _ _ _ _ _ _ _ _ _ _ _ _ _ _ _ _ _ hc0 hc1 (iblk m c 0 t) (iblk m c 1 t) (zAt m c) (Y 6) (sumsAt m c t.val (Nat.le_of_lt t.isLt)).1 (sumsAt m c t.val (Nat.le_of_lt t.isLt)).2).2.2.2 Set.univ _)
  isplitl [H0]; · iexact H0
  isplitl [H1]; · iexact H1
  isplitl [HZ]; · iexact HZ
  isplitl [H6]; · iexact H6
  isplitl [HS]; · iexact HS
  isplitl [HQ]; · iexact HQ
  iintro ⟨H0, H1, HZ, H6, HS, HQ⟩
  isplitl [HZ HS HQ Hg]
  · isplitr [Hg]
    · isplitl [HZ]; · iexact HZ
      isplitl [HS]
      · iapply (owns_of_writes c _ _ _ _ (mid_s c (grid0.coords t) _ _ _ _ _ _ _ _ _ _ _ _ _ _ _ _ _ _ _ _ hc0 hc1 _ _ _ _ _ _)) $$ HS
      · iapply (owns_of_writes c _ _ _ _ (mid_q c (grid0.coords t) _ _ _ _ _ _ _ _ _ _ _ _ _ _ _ _ _ _ _ _ hc0 hc1 _ _ _ _ _ _)) $$ HQ
    · iexact Hg
  isplitl [Ho]; · iexact Ho
  isplitl [H0]
  · iexists _; isplitr
    swap
    · iexact H0
    · ipureintro; exact after_triv0 m c t _ _
  isplitl [H1]
  · iexists _; isplitr
    swap
    · iexact H1
    · ipureintro; exact after_triv1 m c t _ _
  isplitl [H2]
  · iexists _; isplitr
    swap
    · iexact H2
    · ipureintro; exact after_triv2 m c t _ _
  isplitl [H3]
  · iexists _; isplitr
    swap
    · iexact H3
    · ipureintro; exact after_triv3 m c t _ _
  isplitl [H4]
  · iexists _; isplitr
    swap
    · iexact H4
    · ipureintro; exact (after4 m c t _ _).mpr rfl
  isplitl [H5]
  · iexists _; isplitr
    swap
    · iexact H5
    · ipureintro; exact (after5 m c t _ _).mpr rfl
  iexists _; isplitr
  swap
  · iapply (owns_of_writes c _ _ _ _ (mid_out c (grid0.coords t) _ _ _ _ _ _ _ _ _ _ _ _ _ _ _ _ _ _ _ _ hc0 hc1 _ _ _ _ _ _)) $$ H6
  · ipureintro
    refine (after6 m c t _ _).mpr ?_
    unfold outStep rowsStep yA yB
    rw [if_neg hl]

/-- The last grid point. -/
abbrev tL : Fin cfg0.N := ⟨24, by decide⟩

set_option maxHeartbeats 2000000 in
theorem sound_first (c : Dev nD)
    (Y : (w : Fin cfg0.W) → (cfg0.win w).block.Idx → Elt F (cfg0.win w).elt) (hY : ∀ w, (rdat m c).Finds w t0 (Y w)) :
    iprop((rdat m c).Φ (t0).castSucc ∗ (rdat m c).owesAt () (t0).castSucc ∗ owns (c : Thread nD τ) (ms0 t0) fullShare (Y 0) ∗ owns (c : Thread nD τ) (ms1 t0) fullShare (Y 1) ∗ owns (c : Thread nD τ) (ms2 t0) fullShare (Y 2) ∗ owns (c : Thread nD τ) (ms3 t0) fullShare (Y 3) ∗ owns (c : Thread nD τ) (ms4 t0) fullShare (Y 4) ∗ owns (c : Thread nD τ) (ms5 t0) fullShare (Y 5) ∗ owns (c : Thread nD τ) (ms6 t0) fullShare (Y 6))
      ⊢ wp frame (wpE (defs₀ (F := F)) Variants.none c none) Set.univ (bodyAt0 t0) (fun _ => iprop((rdat m c).Φ (t0).succ ∗ (rdat m c).owesAt () (t0).succ
          ∗ (∃ X, ⌜(rdat m c).after 0 t0 (Y 0) X⌝ ∗ owns (c : Thread nD τ) (ms0 t0) fullShare X) ∗ (∃ X, ⌜(rdat m c).after 1 t0 (Y 1) X⌝ ∗ owns (c : Thread nD τ) (ms1 t0) fullShare X) ∗ (∃ X, ⌜(rdat m c).after 2 t0 (Y 2) X⌝ ∗ owns (c : Thread nD τ) (ms2 t0) fullShare X) ∗ (∃ X, ⌜(rdat m c).after 3 t0 (Y 3) X⌝ ∗ owns (c : Thread nD τ) (ms3 t0) fullShare X) ∗ (∃ X, ⌜(rdat m c).after 4 t0 (Y 4) X⌝ ∗ owns (c : Thread nD τ) (ms4 t0) fullShare X) ∗ (∃ X, ⌜(rdat m c).after 5 t0 (Y 5) X⌝ ∗ owns (c : Thread nD τ) (ms5 t0) fullShare X) ∗ (∃ X, ⌜(rdat m c).after 6 t0 (Y 6) X⌝ ∗ owns (c : Thread nD τ) (ms6 t0) fullShare X))) := by
  have hc0 : condFirst (grid0.coords (t0 : Fin cfg0.N)) := (hcondFirst t0).mpr rfl
  have hc1 : ¬condLast (grid0.coords (t0 : Fin cfg0.N)) := fun h => absurd ((hcondLast t0).mp h) (by decide)
  have e0 := finds0 m c t0 _ (hY 0)
  have e1 := finds1 m c t0 _ (hY 1)
  have e2 := finds2 m c _ (hY 2)
  have e3 := finds3 m c _ (hY 3)
  rw [show (rdat m c).Φ (t0 : Fin cfg0.N).castSucc = Pipeline.ΦA spec0 c from rfl, PhiA_eq, PhiS_succ,
    show (rdat m c).owesAt () (t0 : Fin cfg0.N).succ = (rdat m c).owesAt () (t0 : Fin cfg0.N).castSucc from rfl, e0, e1, e2, e3]
  have hz := fun dZ dS dQ => first_z c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have hs : ∀ dZ dS dQ, _ = (sumsAt m c ((t0 : Fin cfg0.N).val + 1) (t0 : Fin cfg0.N).isLt).1 := fun dZ dS dQ => first_s c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have hq : ∀ dZ dS dQ, _ = (sumsAt m c ((t0 : Fin cfg0.N).val + 1) (t0 : Fin cfg0.N).isLt).2 := fun dZ dS dQ => first_q c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  have ho := fun dZ dS dQ => first_out c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ
  unfold bodyAt0
  iintro ⟨⟨⟨⟨%dZ, HZ⟩, ⟨%dS, HS⟩, ⟨%dQ, HQ⟩⟩, Hg⟩, Ho, H0, H1, H2, H3, H4, H5, H6⟩
  iapply ((runFirst c (grid0.coords (t0 : Fin cfg0.N)) (ms0 t0) (hs0 t0) (ms1 t0) (hs1 t0) (ms2 t0) (hs2 t0) (ms3 t0) (hs3 t0) (ms4 t0) (hs4 t0) (ms5 t0) (hs5 t0) (ms6 t0) (hs6 t0) scZ hscZ scS hscS scQ hscQ hc0 hc1 (iblk m c 0 t0) (iblk m c 1 t0) (iblk m c 2 t0) (iblk m c 3 t0) (Y 6) dZ dS dQ).2.2.2.2 Set.univ _)
  isplitl [H0]; · iexact H0
  isplitl [H1]; · iexact H1
  isplitl [H2]; · iexact H2
  isplitl [H3]; · iexact H3
  isplitl [H6]; · iexact H6
  isplitl [HZ]; · iexact HZ
  isplitl [HS]; · iexact HS
  isplitl [HQ]; · iexact HQ
  iintro ⟨H0, H1, H2, H3, H6, HZ, HS, HQ⟩
  isplitl [HZ HS HQ Hg]
  · isplitr [Hg]
    · isplitl [HZ]; · iapply (owns_of_writes c _ _ _ _ (hz dZ dS dQ)) $$ HZ
      isplitl [HS]
      · iapply (owns_of_writes c _ _ _ _ (hs dZ dS dQ)) $$ HS
      · iapply (owns_of_writes c _ _ _ _ (hq dZ dS dQ)) $$ HQ
    · iexact Hg
  isplitl [Ho]; · iexact Ho
  isplitl [H0]
  · iexists _; isplitr
    swap
    · iexact H0
    · ipureintro; exact after_triv0 m c t0 _ _
  isplitl [H1]
  · iexists _; isplitr
    swap
    · iexact H1
    · ipureintro; exact after_triv1 m c t0 _ _
  isplitl [H2]
  · iexists _; isplitr
    swap
    · iexact H2
    · ipureintro; exact after_triv2 m c t0 _ _
  isplitl [H3]
  · iexists _; isplitr
    swap
    · iexact H3
    · ipureintro; exact after_triv3 m c t0 _ _
  isplitl [H4]
  · iexists _; isplitr
    swap
    · iexact H4
    · ipureintro; exact (after4 m c t0 _ _).mpr rfl
  isplitl [H5]
  · iexists _; isplitr
    swap
    · iexact H5
    · ipureintro; exact (after5 m c t0 _ _).mpr rfl
  iexists _; isplitr
  swap
  · iapply (owns_of_writes c _ _ _ _ (ho dZ dS dQ)) $$ H6
  · ipureintro
    exact (after6 m c t0 _ _).mpr rfl

set_option maxHeartbeats 2000000 in
theorem sound_last (c : Dev nD)
    (Y : (w : Fin cfg0.W) → (cfg0.win w).block.Idx → Elt F (cfg0.win w).elt) (hY : ∀ w, (rdat m c).Finds w tL (Y w)) :
    iprop((rdat m c).Φ (tL).castSucc ∗ (rdat m c).owesAt () (tL).castSucc ∗ owns (c : Thread nD τ) (ms0 tL) fullShare (Y 0) ∗ owns (c : Thread nD τ) (ms1 tL) fullShare (Y 1) ∗ owns (c : Thread nD τ) (ms2 tL) fullShare (Y 2) ∗ owns (c : Thread nD τ) (ms3 tL) fullShare (Y 3) ∗ owns (c : Thread nD τ) (ms4 tL) fullShare (Y 4) ∗ owns (c : Thread nD τ) (ms5 tL) fullShare (Y 5) ∗ owns (c : Thread nD τ) (ms6 tL) fullShare (Y 6))
      ⊢ wp frame (wpE (defs₀ (F := F)) Variants.none c none) Set.univ (bodyAt0 tL) (fun _ => iprop((rdat m c).Φ (tL).succ ∗ (rdat m c).owesAt () (tL).succ
          ∗ (∃ X, ⌜(rdat m c).after 0 tL (Y 0) X⌝ ∗ owns (c : Thread nD τ) (ms0 tL) fullShare X) ∗ (∃ X, ⌜(rdat m c).after 1 tL (Y 1) X⌝ ∗ owns (c : Thread nD τ) (ms1 tL) fullShare X) ∗ (∃ X, ⌜(rdat m c).after 2 tL (Y 2) X⌝ ∗ owns (c : Thread nD τ) (ms2 tL) fullShare X) ∗ (∃ X, ⌜(rdat m c).after 3 tL (Y 3) X⌝ ∗ owns (c : Thread nD τ) (ms3 tL) fullShare X) ∗ (∃ X, ⌜(rdat m c).after 4 tL (Y 4) X⌝ ∗ owns (c : Thread nD τ) (ms4 tL) fullShare X) ∗ (∃ X, ⌜(rdat m c).after 5 tL (Y 5) X⌝ ∗ owns (c : Thread nD τ) (ms5 tL) fullShare X) ∗ (∃ X, ⌜(rdat m c).after 6 tL (Y 6) X⌝ ∗ owns (c : Thread nD τ) (ms6 tL) fullShare X))) := by
  have hc0 : ¬condFirst (grid0.coords (tL : Fin cfg0.N)) := fun h => absurd ((hcondFirst tL).mp h) (by decide)
  have hc1 : condLast (grid0.coords (tL : Fin cfg0.N)) := (hcondLast tL).mpr rfl
  have e0 := finds0 m c tL _ (hY 0)
  have e1 := finds1 m c tL _ (hY 1)
  have e4 := finds4 m c 24 (by decide) _ (hY 4)
  have e5 := finds5 m c 24 (by decide) _ (hY 5)
  rw [show (rdat m c).Φ (tL : Fin cfg0.N).castSucc = PhiS m c (tL : Fin cfg0.N).val (Nat.le_of_lt (tL : Fin cfg0.N).isLt) from rfl, PhiS_pos m c _ _ (by decide), PhiS_succ,
    show (rdat m c).owesAt () (tL : Fin cfg0.N).succ = (rdat m c).owesAt () (tL : Fin cfg0.N).castSucc from rfl, e0, e1, e4, e5]
  have hs : _ = (sumsAt m c ((tL : Fin cfg0.N).val + 1) (tL : Fin cfg0.N).isLt).1 := last_s c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  have hq : _ = (sumsAt m c ((tL : Fin cfg0.N).val + 1) (tL : Fin cfg0.N).isLt).2 := last_q c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  have ho : _ = outStep m c tL (Y 6) := last_out c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2
  unfold bodyAt0
  iintro ⟨⟨⟨HZ, HS, HQ⟩, Hg⟩, Ho, H0, H1, H2, H3, H4, H5, H6⟩
  iapply ((runLast c (grid0.coords (tL : Fin cfg0.N)) (ms0 tL) (hs0 tL) (ms1 tL) (hs1 tL) (ms2 tL) (hs2 tL) (ms3 tL) (hs3 tL) (ms4 tL) (hs4 tL) (ms5 tL) (hs5 tL) (ms6 tL) (hs6 tL) scZ hscZ scS hscS scQ hscQ hc0 hc1 (iblk m c 0 tL) (iblk m c 1 tL) (iblk m c 4 t0) (iblk m c 5 t0) (zAt m c) (Y 6) (sumsAt m c 24 (by decide)).1 (sumsAt m c 24 (by decide)).2).2.2.2 Set.univ _)
  isplitl [H0]; · iexact H0
  isplitl [H1]; · iexact H1
  isplitl [H4]; · iexact H4
  isplitl [H5]; · iexact H5
  isplitl [HZ]; · iexact HZ
  isplitl [H6]; · iexact H6
  isplitl [HS]; · iexact HS
  isplitl [HQ]; · iexact HQ
  iintro ⟨H0, H1, H4, H5, HZ, H6, HS, HQ⟩
  isplitl [HZ HS HQ Hg]
  · isplitr [Hg]
    · isplitl [HZ]; · iexact HZ
      isplitl [HS]
      · iapply (owns_of_writes c _ _ _ _ hs) $$ HS
      · iapply (owns_of_writes c _ _ _ _ hq) $$ HQ
    · iexact Hg
  isplitl [Ho]; · iexact Ho
  isplitl [H0]
  · iexists _; isplitr
    swap
    · iexact H0
    · ipureintro; exact after_triv0 m c tL _ _
  isplitl [H1]
  · iexists _; isplitr
    swap
    · iexact H1
    · ipureintro; exact after_triv1 m c tL _ _
  isplitl [H2]
  · iexists _; isplitr
    swap
    · iexact H2
    · ipureintro; exact after_triv2 m c tL _ _
  isplitl [H3]
  · iexists _; isplitr
    swap
    · iexact H3
    · ipureintro; exact after_triv3 m c tL _ _
  isplitl [H4]
  · iexists _; isplitr
    swap
    · iexact H4
    · ipureintro; exact (after4 m c tL _ _).mpr rfl
  isplitl [H5]
  · iexists _; isplitr
    swap
    · iexact H5
    · ipureintro; exact (after5 m c tL _ _).mpr rfl
  iexists _; isplitr
  swap
  · iapply (owns_of_writes c _ _ _ _ ho) $$ H6
  · ipureintro
    exact (after6 m c tL _ _).mpr rfl

/-- The library's body obligation, at every point. -/
theorem body_obligation (c : Dev nD) : (rdat (F := F) m c).BodyObligation (defs₀ (F := F)) Variants.none () Set.univ := fun t Y hY => by
  rw [bigSep_W0, bigSep_W0]
  by_cases hz : t.val = 0
  · obtain rfl : t = t0 := Fin.ext hz
    exact sound_first m c Y hY
  · by_cases hl : t.val = 24
    · obtain rfl : t = tL := Fin.ext hl
      exact sound_last m c Y hY
    · exact sound_mid m c t hz hl Y hY

end Cert.KernelIdeal.Hand

end
-- ==== Proof.KernelIdealLaunch.lean ====
/-
  The region launched, for a pipeline two of whose windows read one array. The array adj is handed to the two
  row-half windows in two halves of its full share (both only read it); every other array is held whole. With
  that split the library's relational launch applies as for distinct arrays: the body obligation at every point,
  the scratch buffers and the generator register handed to the first point and taken back after the last, the
  arrays no window stages (gamma and beta before their reshapes) read back unchanged.
-/
import proofs.«102800_g85255100825815_cont_sun_c4_478_9_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before the first point is the class's. -/
theorem hin (c : Dev nD) : Pipeline.ΦA spec0 c ⊢ (rdat m c).Φ 0 := .rfl

/-- After the last point the invariant gives the scratch buffers back at some contents. -/
theorem hout (c : Dev nD) : (rdat m c).Φ (Fin.last cfg0.N) ⊢ Pipeline.ΦA spec0 c := by
  rw [show (rdat m c).Φ (Fin.last cfg0.N) = PhiS m c cfg0.N (Nat.le_refl _) from rfl, PhiS_pos m c _ _ (by decide), PhiA_eq]
  iintro ⟨⟨HZ, HS, HQ⟩, Hg⟩
  isplitr [Hg]
  · isplitl [HZ]; · iexists _; iexact HZ
    isplitl [HS]; · iexists _; iexact HS
    iexists _; iexact HQ
  · iexact Hg

/-- The distinct buffers behind the windows' arrays. -/
theorem arrRefs_eq : Finset.univ.image (Pipeline.arrRef spec0) = {main_arg0, main_arg1, main_arg2, main_call0_v0, main_call0_v1, main_v0} := by decide

/-- The buffers behind the arrays, each whole, make the windows' arrays at their shares: adj in two halves. -/
theorem arrays_shared (c : Dev nD) :
    (Pipeline.arrBufs (Ix := Unit) (Name := ℕ) (U := UR sig nD τ) (Lvl := ℕ) spec0 c (V m c) : sProp 𝕄) ⊢ (rdat m c).arrays (rdat m c).A := by
  unfold Pipeline.arrBufs Pipeline.RDat.arrays
  rw [arrRefs_eq, bigSep_W0]
  have hL : (bigSep ({main_arg0, main_arg1, main_arg2, main_call0_v0, main_call0_v1, main_v0} : Finset (Ref sig .tc))
        (fun b => (((c.tc : Thread nD τ).loc b) ↦{fullShare} V m c b : sProp 𝕄)))
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_call0_v0) ↦{fullShare} V m c main_call0_v0)
          ∗ (((c.tc : Thread nD τ).loc main_call0_v1) ↦{fullShare} V m c main_call0_v1) ∗ (((c.tc : Thread nD τ).loc main_v0) ↦{fullShare} V m c main_v0)) := by
    rw [bigSep_insert (by decide : main_arg0 ∉ ({main_arg1, main_arg2, main_call0_v0, main_call0_v1, main_v0} : Finset (Ref sig .tc))),
      bigSep_insert (by decide : main_arg1 ∉ ({main_arg2, main_call0_v0, main_call0_v1, main_v0} : Finset (Ref sig .tc))),
      bigSep_insert (by decide : main_arg2 ∉ ({main_call0_v0, main_call0_v1, main_v0} : Finset (Ref sig .tc))),
      bigSep_insert (by decide : main_call0_v0 ∉ ({main_call0_v1, main_v0} : Finset (Ref sig .tc))),
      bigSep_insert (by decide : main_call0_v1 ∉ ({main_v0} : Finset (Ref sig .tc))), bigSep_singleton]
    rfl
  rw [hL]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ,
    show (cfg0.win 6).arr.view.set = Finset.univ from (arr_whole0 6).set_eq_univ]
  iintro ⟨H0, H1, H2, H3, H4, H5⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  iexact H5

/-! ## The run -/

-- the launch's implicit arguments are found by unifying its conclusion with this one, which takes unfolding plain
-- definitions in a metavariable's type
set_option backward.isDefEq.respectTransparency.types false in
set_option maxHeartbeats 1000000 in
/-- Every weakly fair execution of the host program terminates without a fault; every window's array then holds what the
    relational data allow after the write-backs, and every other unscoped buffer what the region found in it. -/
theorem run_main : θ_run defs (onTc (τ := τ) (main (F := F))) (s₀ m ρ) (Pipeline.RDat.FramePost cfg0 (rdat m) (V m)) := by
  classical
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 (rdat m)) () cellOf_inj 0 winFacts₀0
    (Pipeline.OwnSemFacts.none spec0) (Pipeline.PreFacts.none _) emb₁ defs₀ Variants.none m ρ main
    (fun c => by rw [Pipeline.RDat.familyOf_self]; exact body_obligation m c)
    block_pos0 arr_whole0 stage_whole0 (fun c t => by rw [Pipeline.RDat.familyOf_self]; rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_shared m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self]
      exact (show _ ⊢ Pipeline.ΦA spec0 c by
        unfold Pipeline.ΦA; iintro ⟨Hp, -, Hr⟩
        isplitl [Hr] <;> iassumption).trans (hin m c))
    (hout := fun c => by
      rw [Pipeline.RDat.familyOf_self]
      exact (hout m c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (h c).2.1 (h c).2.2⟩)

/-- The frame: every argument array ends as launched. adj, x and W are input windows' arrays, never written back;
    gamma and beta are staged by no window (their reshapes are) and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 2 rfl _) _) ((h c).1 2)).trans ((A_eq m c 2).trans (V_main_arg1 m c)),
     (Eq.mp (congrFun ((rdat m c).ArrAt_in 3 rfl _) _) ((h c).1 3)).trans ((A_eq m c 3).trans (V_main_arg2 m c)),
     ((h c).2 main_arg3 (Pipeline.mem_restRefs_of main_arg3 rfl (by decide))).trans (V_main_arg3 m c),
     ((h c).2 main_arg4 (Pipeline.mem_restRefs_of main_arg4 rfl (by decide))).trans (V_main_arg4 m c)⟩) (run_main m ρ)

end Cert.KernelIdeal.Hand

end
-- ==== Proof.GcnBlocks.lean ====
/-
  The windows' blocks read at an index. Block t of the first adj window is rows [200t, 200t+200) of adj, block t
  of the second is rows [5000+200t, 5000+200t+200); the x and W windows' one block is the whole array; gamma's and
  beta's windows stage their [1,128] reshapes, whose entry (0, j) is the vector's entry j; the output window's one
  block is the whole output array.
-/
import proofs.«102800_g85255100825815_cont_sun_c4_478_9_alg».proof.Proof.KernelIdealLaunch
import Idealize.ShloMosaic.Lib.ValueIdx
import Idealize.ShloMosaic.Lib.ValueIdxCoords
import Idealize.ShloMosaic.Lib.ValueLayout
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The windows' block indices over the grid: the first adj window's is the point, the second's the point + 25, every other window's 0. -/
theorem idx_facts : ∀ t : Fin cfg0.N, win0_0.index t (0 : Fin 2) = t.val ∧ win0_0.index t (1 : Fin 2) = 0
    ∧ win0_1.index t (0 : Fin 2) = t.val + 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem iblk0_apply (c : Dev nD) (t : Fin cfg0.N) (p : Fin 200) (k : Fin 10000) (h : 200 * t.val + p.val < 10000) :
    iblk m c 0 t (ix2 p k) = m ((c.tc : Thread nD τ).loc main_arg0) (ix2 ⟨200 * t.val + p.val, h⟩ k) := by
  refine (show iblk m c 0 t (ix2 p k) = V m c main_arg0 (ix2 ⟨200 * t.val + p.val, h⟩ k) from ?_).trans (congrFun (V_main_arg0 m c) _)
  show V m c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 200 + 1 * p.val = 200 * t.val + p.val; omega
  | ⟨1, _⟩ => show win0_0.index t (1 : Fin 2) * 10000 + 1 * k.val = k.val; omega

theorem iblk1_apply (c : Dev nD) (t : Fin cfg0.N) (p : Fin 200) (k : Fin 10000) (h : 5000 + 200 * t.val + p.val < 10000) :
    iblk m c 1 t (ix2 p k) = m ((c.tc : Thread nD τ).loc main_arg0) (ix2 ⟨5000 + 200 * t.val + p.val, h⟩ k) := by
  refine (show iblk m c 1 t (ix2 p k) = V m c main_arg0 (ix2 ⟨5000 + 200 * t.val + p.val, h⟩ k) from ?_).trans (congrFun (V_main_arg0 m c) _)
  show V m c main_arg0 (((cfg0.win 1).blk t).view.emb (ix2 p k)) = _
  refine congrArg _ (funext fun a => Fin.ext ?_)
  obtain ⟨-, -, e2, e3, -⟩ := idx_facts t
  match a with
  | ⟨0, _⟩ => show win0_1.index t (0 : Fin 2) * 200 + 1 * p.val = 5000 + 200 * t.val + p.val; omega
  | ⟨1, _⟩ => show win0_1.index t (1 : Fin 2) * 10000 + 1 * k.val = k.val; omega

theorem iblk2_apply (c : Dev nD) (t : Fin cfg0.N) (r : Fin 10000) (k : Fin 128) :
    iblk m c 2 t (ix2 r k) = m ((c.tc : Thread nD τ).loc main_arg1) (ix2 r k) := by
  refine (show iblk m c 2 t (ix2 r k) = V m c main_arg1 (ix2 r k) from ?_).trans (congrFun (V_main_arg1 m c) _)
  show V m c main_arg1 (((cfg0.win 2).blk t).view.emb (ix2 r k)) = _
  refine congrArg _ (funext fun a => Fin.ext ?_)
  obtain ⟨-, -, -, -, e4, e5, -⟩ := idx_facts t
  match a with
  | ⟨0, _⟩ => show win0_2.index t (0 : Fin 2) * 10000 + 1 * r.val = r.val; omega
  | ⟨1, _⟩ => show win0_2.index t (1 : Fin 2) * 128 + 1 * k.val = k.val; omega

theorem iblk3_apply (c : Dev nD) (t : Fin cfg0.N) (r : Fin 128) (k : Fin 128) :
    iblk m c 3 t (ix2 r k) = m ((c.tc : Thread nD τ).loc main_arg2) (ix2 r k) := by
  refine (show iblk m c 3 t (ix2 r k) = V m c main_arg2 (ix2 r k) from ?_).trans (congrFun (V_main_arg2 m c) _)
  show V m c main_arg2 (((cfg0.win 3).blk t).view.emb (ix2 r k)) = _
  refine congrArg _ (funext fun a => Fin.ext ?_)
  obtain ⟨-, -, -, -, -, -, e6, e7, -⟩ := idx_facts t
  match a with
  | ⟨0, _⟩ => show win0_3.index t (0 : Fin 2) * 128 + 1 * r.val = r.val; omega
  | ⟨1, _⟩ => show win0_3.index t (1 : Fin 2) * 128 + 1 * k.val = k.val; omega

/-- What the region finds in gamma's and beta's [1,128] reshapes. -/
theorem V_gamma (c : Dev nD) : (V m c main_call0_v0 : S1x128.Idx → EReal) = shapeCast S1x128 (m ((c.tc : Thread nD τ).loc main_arg3)) shapeCasts_S128_S1x128 := by
  dsimp only [V, hostOps0]; after_results; rfl
theorem V_beta (c : Dev nD) : (V m c main_call0_v1 : S1x128.Idx → EReal) = shapeCast S1x128 (m ((c.tc : Thread nD τ).loc main_arg4)) shapeCasts_S128_S1x128 := by
  dsimp only [V, hostOps0]; after_results; rfl

theorem iblk4_apply (c : Dev nD) (t : Fin cfg0.N) (j : Fin 128) :
    iblk m c 4 t (ix2 (0 : Fin 1) j) = m ((c.tc : Thread nD τ).loc main_arg3) (ix1 j) := by
  refine (show iblk m c 4 t (ix2 (0 : Fin 1) j) = V m c main_call0_v0 (ix2 (0 : Fin 1) j) from ?_).trans ?_
  · show V m c main_call0_v0 (((cfg0.win 4).blk t).view.emb (ix2 (0 : Fin 1) j)) = _
    refine congrArg _ (funext fun a => Fin.ext ?_)
    obtain ⟨-, -, -, -, -, -, -, -, e8, e9, -⟩ := idx_facts t
    match a with
    | ⟨0, _⟩ => show win0_4.index t (0 : Fin 2) * 1 + 1 * 0 = 0; omega
    | ⟨1, _⟩ => show win0_4.index t (1 : Fin 2) * 128 + 1 * j.val = j.val; omega
  · rw [V_gamma]; exact shapeCast_a_1a_apply _ _ _ _

theorem iblk5_apply (c : Dev nD) (t : Fin cfg0.N) (j : Fin 128) :
    iblk m c 5 t (ix2 (0 : Fin 1) j) = m ((c.tc : Thread nD τ).loc main_arg4) (ix1 j) := by
  refine (show iblk m c 5 t (ix2 (0 : Fin 1) j) = V m c main_call0_v1 (ix2 (0 : Fin 1) j) from ?_).trans ?_
  · show V m c main_call0_v1 (((cfg0.win 5).blk t).view.emb (ix2 (0 : Fin 1) j)) = _
    refine congrArg _ (funext fun a => Fin.ext ?_)
    obtain ⟨-, -, -, -, -, -, -, -, -, -, e10, e11, -⟩ := idx_facts t
    match a with
    | ⟨0, _⟩ => show win0_5.index t (0 : Fin 2) * 1 + 1 * 0 = 0; omega
    | ⟨1, _⟩ => show win0_5.index t (1 : Fin 2) * 128 + 1 * j.val = j.val; omega
  · rw [V_beta]; exact shapeCast_a_1a_apply _ _ _ _

/-- The output window's one block is the whole array: its index (r, j) sits at (r, j). -/
theorem emb6 (t : Fin cfg0.N) (y : S10000x128.Idx) : ((cfg0.win 6).blk t).view.emb y = y := by
  funext a; apply Fin.ext
  obtain ⟨-, -, -, -, -, -, -, -, -, -, -, -, e12, e13⟩ := idx_facts t
  match a with
  | ⟨0, _⟩ => show win0_6.index t (0 : Fin 2) * 10000 + 1 * (y 0).val = (y 0).val; omega
  | ⟨1, _⟩ => show win0_6.index t (1 : Fin 2) * 128 + 1 * (y 1).val = (y 1).val; omega

end Cert.KernelIdeal.HandValue

end
-- ==== Proof.GcnPayloads.lean ====
/-
  The body's arithmetic read at an index, at the extended reals. z = x·W and a y block = (adj block)·z are plain
  sums of products over the contraction index; a point's contribution to the running column sums is the sum over
  its 200 rows of each y block (and of its squares); the last point's normalisation at (r, c) reads the two sums,
  gamma and beta at column c and the resident block at (r, c).
-/
import proofs.«102800_g85255100825815_cont_sun_c4_478_9_alg».proof.Proof.Gen.KernelIdeal.Skeleton
import Idealize.ShloMosaic.Lib.ValueIdx
import Idealize.ShloMosaic.Lib.ValueIdxCoords
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

theorem dz_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dz_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dz_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dz_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem dy_lhs0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem dy_lhs1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem dy_rhs0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem dy_rhs1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- z = x·W at (k, j). -/
theorem pay3_apply (X : FVec Ideal S10000x128 .f32) (Wm : FVec Ideal S128x128 .f32) (r : Fin 10000) (j : Fin 128) :
    k0_pay3 (F := Ideal) X Wm (ix2 r j) = ∑ k : Fin 128, X (ix2 r k) * Wm (ix2 k j) := by
  unfold k0_pay3
  rw [shapeCast_self]
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun ax => Fin.ext (by
    match ax with
    | ⟨0, _⟩ => exact dz_lhs0 _ _
    | ⟨1, _⟩ => exact (dz_lhs1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun ax => Fin.ext (by
    match ax with
    | ⟨0, _⟩ => exact (dz_rhs0 _ _).trans hk
    | ⟨1, _⟩ => exact dz_rhs1 _ _)
  rw [el, er]

/-- A y block at (p, j): row p of the adj block times column j of z. -/
theorem pay6_apply (x1 : FVec Ideal S200x10000 .f32) (Z : FVec Ideal S10000x128 .f32) (p : Fin 200) (j : Fin 128) :
    k0_pay6 (F := Ideal) x1 Z (ix2 p j) = ∑ k : Fin 10000, x1 (ix2 p k) * Z (ix2 k j) := by
  unfold k0_pay6
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p j) ((contrEquiv1 dot_S200x10000_S10000x128_S200x128_1_0_0_1_n_n 10000 rfl rfl).symm k) = ix2 p k := funext fun ax => Fin.ext (by
    match ax with
    | ⟨0, _⟩ => exact dy_lhs0 _ _
    | ⟨1, _⟩ => exact (dy_lhs1 _ _).trans hk)
  have er : dot_S200x10000_S10000x128_S200x128_1_0_0_1_n_n.rhsIdx (ix2 p j) ((contrEquiv1 dot_S200x10000_S10000x128_S200x128_1_0_0_1_n_n 10000 rfl rfl).symm k) = ix2 k j := funext fun ax => Fin.ext (by
    match ax with
    | ⟨0, _⟩ => exact (dy_rhs0 _ _).trans hk
    | ⟨1, _⟩ => exact dy_rhs1 _ _)
  rw [el, er]
theorem pay7_apply (x2 : FVec Ideal S200x10000 .f32) (Z : FVec Ideal S10000x128 .f32) (p : Fin 200) (j : Fin 128) :
    k0_pay7 (F := Ideal) x2 Z (ix2 p j) = ∑ k : Fin 10000, x2 (ix2 p k) * Z (ix2 k j) := by
  unfold k0_pay7
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p j) ((contrEquiv1 dot_S200x10000_S10000x128_S200x128_1_0_0_1_n_n 10000 rfl rfl).symm k) = ix2 p k := funext fun ax => Fin.ext (by
    match ax with
    | ⟨0, _⟩ => exact dy_lhs0 _ _
    | ⟨1, _⟩ => exact (dy_lhs1 _ _).trans hk)
  have er : dot_S200x10000_S10000x128_S200x128_1_0_0_1_n_n.rhsIdx (ix2 p j) ((contrEquiv1 dot_S200x10000_S10000x128_S200x128_1_0_0_1_n_n 10000 rfl rfl).symm k) = ix2 k j := funext fun ax => Fin.ext (by
    match ax with
    | ⟨0, _⟩ => exact (dy_rhs0 _ _).trans hk
    | ⟨1, _⟩ => exact dy_rhs1 _ _)
  rw [el, er]

/-- The index a sum over the rows of a [200,128] block reads at row k, column j. -/
theorem lift_rows (j : Fin 128) (k : Fin (S200x128.size (0 : Fin 2))) :
    (reduces_S200x128_S128).lift (ix1 j : S128.Idx) k = (ix2 (⟨k.val, k.isLt⟩ : Fin 200) j : S200x128.Idx) := by
  funext ax
  match ax with
  | ⟨0, _⟩ => rfl
  | ⟨1, _⟩ => rfl

/-- The sum of a [200,128] block over its rows, at column j. -/
theorem colsum_apply (src : FVec Ideal S200x128 .f32) (hφ : FKind.Formats .f32) (hacc : (0x00000000#32 : BitVec 32) = 0x00000000#32) (j : Fin 128) :
    multiReduction .add [0] S128 src 0x00000000#32 reduces_S200x128_S128 hφ hacc (ix1 j) = ∑ p : Fin 200, src (ix2 p j) :=
  (Ideal.multiReduction_add_single src 0x00000000#32 reduces_S200x128_S128 hφ hacc (ix1 j)).trans (by
    simp only [lift_rows]; rfl)

/-- The zeroed running sums. -/
theorem pay4_apply (i : S1x128.Idx) : k0_pay4 (F := Ideal) i = Ideal.ofBits .f32 0x00000000#32 := by
  unfold k0_pay4; rw [shapeCast_self]; rfl
theorem pay5_apply (i : S1x128.Idx) : k0_pay5 (F := Ideal) i = Ideal.ofBits .f32 0x00000000#32 := by
  unfold k0_pay5; rw [shapeCast_self]; rfl

/-- The running column sum after a point: what it was plus the column sums of the point's two y blocks. -/
theorem pay8_apply (x1 x2 : FVec Ideal S200x10000 .f32) (Z : FVec Ideal S10000x128 .f32) (s : FVec Ideal S1x128 .f32) (j : Fin 128) :
    k0_pay8 (F := Ideal) x1 Z x2 Z s (ix2 (0 : Fin 1) j)
      = s (ix2 (0 : Fin 1) j) + ((∑ p : Fin 200, k0_pay6 (F := Ideal) x1 Z (ix2 p j)) + (∑ p : Fin 200, k0_pay7 (F := Ideal) x2 Z (ix2 p j))) := by
  unfold k0_pay8
  rw [shapeCast_self, addf_apply, addf_apply, shapeCast_a_1a_apply, shapeCast_a_1a_apply, colsum_apply, colsum_apply]

/-- The column sum of squares of one y block. -/
theorem pay9_apply (x1 : FVec Ideal S200x10000 .f32) (Z : FVec Ideal S10000x128 .f32) (j : Fin 128) :
    k0_pay9 (F := Ideal) x1 Z (ix1 j) = ∑ p : Fin 200, k0_pay6 (F := Ideal) x1 Z (ix2 p j) * k0_pay6 (F := Ideal) x1 Z (ix2 p j) := by
  unfold k0_pay9
  rw [colsum_apply]
  simp only [mulf_apply]

/-- The running column sum of squares after a point. -/
theorem pay1_apply (v8 : FVec Ideal S200x128 .f32) (q : FVec Ideal S1x128 .f32) (v28 : FVec Ideal S128 .f32) (j : Fin 128) :
    k0_pay1 (F := Ideal) v8 q v28 (ix2 (0 : Fin 1) j)
      = q (ix2 (0 : Fin 1) j) + (v28 (ix1 j) + ∑ p : Fin 200, v8 (ix2 p j) * v8 (ix2 p j)) := by
  unfold k0_pay1
  rw [shapeCast_self, addf_apply, addf_apply, shapeCast_a_1a_apply, shapeCast_a_1a_apply, colsum_apply]
  simp only [mulf_apply]

/-- The last point's normalisation at (r, j). -/
theorem pay2_apply (s q g b : FVec Ideal S1x128 .f32) (U : FVec Ideal S10000x128 .f32) (r : Fin 10000) (j : Fin 128) :
    k0_pay2 (F := Ideal) s q g b U (ix2 r j)
      = max (U (ix2 r j) * (g (ix2 (0 : Fin 1) j) * Ideal.rsqrt (max (Ideal.div (q (ix2 (0 : Fin 1) j)) (Ideal.ofBits .f32 0x461C4000#32)
                - Ideal.div (s (ix2 (0 : Fin 1) j)) (Ideal.ofBits .f32 0x461C4000#32) * Ideal.div (s (ix2 (0 : Fin 1) j)) (Ideal.ofBits .f32 0x461C4000#32)) (Ideal.ofBits .f32 0x00000000#32)
              + Ideal.ofBits .f32 0x3727C5AC#32))
          + (b (ix2 (0 : Fin 1) j) - Ideal.div (s (ix2 (0 : Fin 1) j)) (Ideal.ofBits .f32 0x461C4000#32)
              * (g (ix2 (0 : Fin 1) j) * Ideal.rsqrt (max (Ideal.div (q (ix2 (0 : Fin 1) j)) (Ideal.ofBits .f32 0x461C4000#32)
                - Ideal.div (s (ix2 (0 : Fin 1) j)) (Ideal.ofBits .f32 0x461C4000#32) * Ideal.div (s (ix2 (0 : Fin 1) j)) (Ideal.ofBits .f32 0x461C4000#32)) (Ideal.ofBits .f32 0x00000000#32)
              + Ideal.ofBits .f32 0x3727C5AC#32)))) (Ideal.ofBits .f32 0x00000000#32) := by
  unfold k0_pay2
  rw [maximumf_apply, addf_apply, mulf_apply, shapeCast_self, broadcastTo_1b_ab_apply, broadcastTo_1b_ab_apply]
  simp only [shapeCast_self, mulf_apply, subf_apply, addf_apply, divf_apply, maximumf_apply, broadcast_apply]
  rfl

end Cert.KernelIdeal.HandValue

end
-- ==== Proof.Spec.lean ====
/-
  The graph-convolution layer with batch normalisation, as ONE function of its five argument arrays, entry by entry,
  over the extended reals.

  With  z = x · W  and  y = adj · z  (a 10000 × 128 array), and for every column c:
      mean c = (Σ_r y r c) / N                                   (N the f32 word of 10000.0)
      var  c = (Σ_r (y r c − mean c) · (y r c − mean c)) / N     (the biased variance)
  the result at (r, c) is
      max (gamma c · ((y r c − mean c) / sqrt (var c + eps)) + beta c) 0      (eps the f32 word of 1e-5).
  Division is the extended reals' `Ideal.div`, the root is `Ideal.sqrt`; N, eps and the final zero stay the f32
  words they are written as, so that nothing here evaluates them. The sums carry no initial zero: 0 + s = s on the
  extended reals without any finiteness.
-/
import Idealize.ShloMosaic.PureOps.Ideal
import Idealize.ShloMosaic.Lib.ValueIdx

noncomputable section

open scoped BigOperators

namespace Cert.GcnSpec

open Idealize.ShloMosaic Idealize.ShloMosaic.ValueIdx

/-- The adjacency matrix's index set, 10000 × 10000. -/
abbrev SAdj : Shape := ⟨2, ![10000, 10000]⟩
/-- The features' and the result's index set, 10000 × 128. -/
abbrev SX : Shape := ⟨2, ![10000, 128]⟩
/-- The weight matrix's index set, 128 × 128. -/
abbrev SW : Shape := ⟨2, ![128, 128]⟩
/-- The index set of a per-column vector (gamma, beta), 128. -/
abbrev SV : Shape := ⟨1, ![128]⟩

/-- `y = adj · (x · W)` at row `r`, column `c`: the sum over the 10000 neighbours `k` of `adj r k` times the
    transformed feature `(x · W) k c = Σ_j x k j · W j c`. -/
def y (adj : SAdj.Idx → EReal) (x : SX.Idx → EReal) (W : SW.Idx → EReal) (r : Fin 10000) (c : Fin 128) : EReal :=
  ∑ k : Fin 10000, adj (ix2 r k) * (∑ j : Fin 128, x (ix2 k j) * W (ix2 j c))

/-- The mean of column `c` of `y` over the 10000 rows; the divisor is the f32 word of 10000.0. -/
def mean (adj : SAdj.Idx → EReal) (x : SX.Idx → EReal) (W : SW.Idx → EReal) (c : Fin 128) : EReal :=
  Ideal.div (∑ r : Fin 10000, y adj x W r c) (Ideal.ofBits .f32 0x461C4000#32)

/-- The biased variance of column `c` of `y`: the mean of the squared deviations from the column's mean. -/
def var (adj : SAdj.Idx → EReal) (x : SX.Idx → EReal) (W : SW.Idx → EReal) (c : Fin 128) : EReal :=
  Ideal.div (∑ r : Fin 10000, (y adj x W r c - mean adj x W c) * (y adj x W r c - mean adj x W c))
    (Ideal.ofBits .f32 0x461C4000#32)

/-- The layer's result at row `r`, column `c`: normalise `y r c` by its column's mean and standard deviation (the
    root of the variance plus the f32 word of 1e-5), scale by `gamma c`, shift by `beta c`, rectify at the f32 word
    of 0.0. -/
def Gat (adj : SAdj.Idx → EReal) (x : SX.Idx → EReal) (W : SW.Idx → EReal) (gamma beta : SV.Idx → EReal)
    (r : Fin 10000) (c : Fin 128) : EReal :=
  max (gamma (ix1 c)
        * Ideal.div (y adj x W r c - mean adj x W c) (Ideal.sqrt (var adj x W c + Ideal.ofBits .f32 0x3727C5AC#32))
      + beta (ix1 c))
    (Ideal.ofBits .f32 0x00000000#32)

/-- The layer's result as an array over the 10000 × 128 index set. -/
def G (adj : SAdj.Idx → EReal) (x : SX.Idx → EReal) (W : SW.Idx → EReal) (gamma beta : SV.Idx → EReal) :
    SX.Idx → EReal :=
  fun i => Gat adj x W gamma beta (i 0) (i 1)

/-- The array at the index with coordinates `r`, `c` is the entry formula there. -/
theorem G_ix2 (adj : SAdj.Idx → EReal) (x : SX.Idx → EReal) (W : SW.Idx → EReal) (gamma beta : SV.Idx → EReal)
    (r : Fin 10000) (c : Fin 128) : G adj x W gamma beta (ix2 r c) = Gat adj x W gamma beta r c := rfl

end Cert.GcnSpec

end
-- ==== Proof.GcnRows.lean ====
/-
  The resident output block, row by row. A point's two blocks are rows of y = adj·(x·W): the first adj window's
  block t gives rows [200t, 200t+200), the second's rows [5000+200t, 5000+200t+200). A point overwrites exactly
  those rows and keeps the others, so before point n the rows of the blocks of points < n already hold y, and
  after the last point's step every row does.
-/
import proofs.«102800_g85255100825815_cont_sun_c4_478_9_alg».proof.Proof.GcnBlocks
import proofs.«102800_g85255100825815_cont_sun_c4_478_9_alg».proof.Proof.GcnPayloads
import proofs.«102800_g85255100825815_cont_sun_c4_478_9_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (RDat)

variable (m : (ℓ : Loc nD τ sig) → Buf (Elt Ideal) ℓ) (c : Dev nD)

/-- The five argument arrays as launched, as tables of extended reals. -/
abbrev aAdj : S10000x10000.Idx → EReal := m ((c.tc : Thread nD τ).loc main_arg0)
abbrev aX : S10000x128.Idx → EReal := m ((c.tc : Thread nD τ).loc main_arg1)
abbrev aW : S128x128.Idx → EReal := m ((c.tc : Thread nD τ).loc main_arg2)
abbrev aGamma : S128.Idx → EReal := m ((c.tc : Thread nD τ).loc main_arg3)
abbrev aBeta : S128.Idx → EReal := m ((c.tc : Thread nD τ).loc main_arg4)

/-- y = adj·(x·W) of the argument arrays as launched, at (r, j). -/
abbrev yv (r : Fin 10000) (j : Fin 128) : EReal :=
  Cert.GcnSpec.y (aAdj m c) (aX m c) (aW m c) r j

theorem zAt_apply (k : Fin 10000) (j : Fin 128) :
    zAt m c (ix2 k j) = ∑ l : Fin 128, aX m c (ix2 k l) * aW m c (ix2 l j) := by
  unfold zAt
  refine (pay3_apply (iblk m c 2 t0) (iblk m c 3 t0) k j).trans ?_
  refine Finset.sum_congr rfl fun l _ => ?_
  rw [iblk2_apply m c t0 k l, iblk3_apply m c t0 l j]

theorem yA_apply (t : Fin cfg0.N) (p : Fin 200) (j : Fin 128) (h : 200 * t.val + p.val < 10000) :
    yA m c t (ix2 p j) = yv m c ⟨200 * t.val + p.val, h⟩ j := by
  unfold yA
  refine (pay6_apply (iblk m c 0 t) (zAt m c) p j).trans ?_
  unfold yv Cert.GcnSpec.y
  refine Finset.sum_congr rfl fun k _ => ?_
  rw [iblk0_apply m c t p k h, zAt_apply]

theorem yB_apply (t : Fin cfg0.N) (p : Fin 200) (j : Fin 128) (h : 5000 + 200 * t.val + p.val < 10000) :
    yB m c t (ix2 p j) = yv m c ⟨5000 + 200 * t.val + p.val, h⟩ j := by
  unfold yB
  refine (pay7_apply (iblk m c 1 t) (zAt m c) p j).trans ?_
  unfold yv Cert.GcnSpec.y
  refine Finset.sum_congr rfl fun k _ => ?_
  rw [iblk1_apply m c t p k h, zAt_apply]

/-! ## Rows replaced -/

theorem rowsUpd_in (o : ℕ) (P : Vec Ideal S200x128 .f32) (Y : Vec Ideal S10000x128 .f32) (r : Fin 10000) (j : Fin 128)
    (h1 : o ≤ r.val) (h2 : r.val < o + 200) :
    rowsUpd o P Y (ix2 r j) = P (ix2 ⟨r.val - o, by omega⟩ j) := by
  unfold rowsUpd
  rw [dif_pos (show o ≤ ((ix2 r j : S10000x128.Idx) (0 : Fin 2)).val ∧ ((ix2 r j : S10000x128.Idx) (0 : Fin 2)).val < o + 200 from ⟨h1, h2⟩)]
  refine congrArg P (funext fun a => Fin.ext ?_)
  match a with
  | ⟨0, _⟩ => rfl
  | ⟨1, _⟩ => show j.val - 0 = j.val; omega

theorem rowsUpd_out (o : ℕ) (P : Vec Ideal S200x128 .f32) (Y : Vec Ideal S10000x128 .f32) (r : Fin 10000) (j : Fin 128)
    (h : r.val < o ∨ o + 200 ≤ r.val) :
    rowsUpd o P Y (ix2 r j) = Y (ix2 r j) := by
  unfold rowsUpd
  rw [dif_neg (show ¬(o ≤ ((ix2 r j : S10000x128.Idx) (0 : Fin 2)).val ∧ ((ix2 r j : S10000x128.Idx) (0 : Fin 2)).val < o + 200) from fun hh => by
    have h1 : o ≤ r.val := hh.1
    have h2 : r.val < o + 200 := hh.2
    omega)]

/-! ## What a point's step leaves, row by row -/

theorem rowsStep_B (t : Fin cfg0.N) (Y : Vec Ideal S10000x128 .f32) (r : Fin 10000) (j : Fin 128)
    (h1 : 5000 + 200 * t.val ≤ r.val) (h2 : r.val < 5000 + 200 * t.val + 200) :
    rowsStep m c t Y (ix2 r j) = yv m c r j := by
  unfold rowsStep
  rw [coords_val t, rowsUpd_in _ _ _ r j (by omega) (by omega)]
  refine (yB_apply m c t ⟨r.val - (200 * t.val + 5000), by omega⟩ j (by show 5000 + 200 * t.val + (r.val - (200 * t.val + 5000)) < 10000; have := r.isLt; omega)).trans ?_
  refine congrArg (fun rr => yv m c rr j) (Fin.ext ?_)
  show 5000 + 200 * t.val + (r.val - (200 * t.val + 5000)) = r.val
  omega

theorem rowsStep_A (t : Fin cfg0.N) (Y : Vec Ideal S10000x128 .f32) (r : Fin 10000) (j : Fin 128)
    (h1 : 200 * t.val ≤ r.val) (h2 : r.val < 200 * t.val + 200) :
    rowsStep m c t Y (ix2 r j) = yv m c r j := by
  have ht : t.val < 25 := lt_of_lt_of_eq t.isLt hN25
  unfold rowsStep
  rw [coords_val t, rowsUpd_out _ _ _ r j (by omega), rowsUpd_in _ _ _ r j h1 h2]
  refine (yA_apply m c t ⟨r.val - 200 * t.val, by omega⟩ j (by show 200 * t.val + (r.val - 200 * t.val) < 10000; have := r.isLt; omega)).trans ?_
  refine congrArg (fun rr => yv m c rr j) (Fin.ext ?_)
  show 200 * t.val + (r.val - 200 * t.val) = r.val
  omega

theorem rowsStep_other (t : Fin cfg0.N) (Y : Vec Ideal S10000x128 .f32) (r : Fin 10000) (j : Fin 128)
    (hA : r.val < 200 * t.val ∨ 200 * t.val + 200 ≤ r.val) (hB : r.val < 5000 + 200 * t.val ∨ 5000 + 200 * t.val + 200 ≤ r.val) :
    rowsStep m c t Y (ix2 r j) = Y (ix2 r j) := by
  unfold rowsStep
  rw [coords_val t, rowsUpd_out _ _ _ r j (by omega), rowsUpd_out _ _ _ r j hA]

/-! ## The rows already written before a point -/

/-- Before point n, the rows of the blocks of the points below n hold y. -/
theorem finds6_rows : ∀ (n : ℕ) (hn : n < cfg0.N) (Y : Vec Ideal S10000x128 .f32), (rdat m c).Finds 6 ⟨n, hn⟩ Y →
    ∀ (r : Fin 10000) (j : Fin 128), (r.val < 200 * n ∨ (5000 ≤ r.val ∧ r.val < 5000 + 200 * n)) → Y (ix2 r j) = yv m c r j
  | 0, _, _, _, r, j, h => by omega
  | n + 1, hn, Y, hF, r, j, h => by
    have hN : n + 1 < 25 := lt_of_lt_of_eq hn hN25
    have hf : (cfg0.win 6).fetch ⟨n + 1, hn⟩ = false := by simp [Pipeline.Window.fetch]
    rcases ((rdat m c).finds_of_pos hf (by simp) Y).mp hF with hfl | ⟨Y', hY', hYY'⟩
    · exfalso
      have := (flush0_6 _).mp hfl
      dsimp only at this
      omega
    · have e : Y = outStep m c ⟨n, Nat.lt_of_succ_lt hn⟩ Y' := (after6 m c _ Y' Y).mp hYY'
      have hne : (⟨n, Nat.lt_of_succ_lt hn⟩ : Fin cfg0.N).val ≠ 24 := by show n ≠ 24; omega
      rw [e]
      unfold outStep
      rw [if_neg hne]
      by_cases hB : 5000 + 200 * n ≤ r.val ∧ r.val < 5000 + 200 * n + 200
      · exact rowsStep_B m c ⟨n, Nat.lt_of_succ_lt hn⟩ Y' r j hB.1 hB.2
      · by_cases hA : 200 * n ≤ r.val ∧ r.val < 200 * n + 200
        · exact rowsStep_A m c ⟨n, Nat.lt_of_succ_lt hn⟩ Y' r j hA.1 hA.2
        · rw [rowsStep_other m c ⟨n, Nat.lt_of_succ_lt hn⟩ Y' r j (by show r.val < 200 * n ∨ 200 * n + 200 ≤ r.val; omega) (by show r.val < 5000 + 200 * n ∨ 5000 + 200 * n + 200 ≤ r.val; omega)]
          exact finds6_rows n (Nat.lt_of_succ_lt hn) Y' hY' r j (by omega)

/-- After the last point's step every row holds y. -/
theorem rowsStep_last (Y : Vec Ideal S10000x128 .f32) (hF : (rdat m c).Finds 6 tL Y) (r : Fin 10000) (j : Fin 128) :
    rowsStep m c tL Y (ix2 r j) = yv m c r j := by
  have hr := r.isLt
  by_cases hB : 5000 + 200 * 24 ≤ r.val ∧ r.val < 5000 + 200 * 24 + 200
  · exact rowsStep_B m c tL Y r j hB.1 hB.2
  · by_cases hA : 200 * 24 ≤ r.val ∧ r.val < 200 * 24 + 200
    · exact rowsStep_A m c tL Y r j hA.1 hA.2
    · rw [rowsStep_other m c tL Y r j (by show r.val < 200 * 24 ∨ 200 * 24 + 200 ≤ r.val; omega) (by show r.val < 5000 + 200 * 24 ∨ 5000 + 200 * 24 + 200 ≤ r.val; omega)]
      exact finds6_rows m c 24 (by decide) Y hF r j (by omega)

end Cert.KernelIdeal.HandValue

end
-- ==== Proof.BatchNormLaw.lean ====
/-
  The pure algebra of a batch-normalised layer, over the extended reals.

  A column of finite values y₀ … y₉₉₉₉ has the sum S = Σ y, the sum of squares SS = Σ y·y, the mean
  m = S / 10000 and the variance V = Σ (y − m)·(y − m) / 10000. Over the reals V = SS / 10000 − m·m and V ≥ 0,
  so taking the maximum of SS / 10000 − m·m with zero changes nothing, and for a positive ε

      y · (g · (V + ε)^(−1/2)) + (b − m · (g · (V + ε)^(−1/2)))  =  g · ((y − m) / √(V + ε)) + b .

  None of these laws holds at an infinity, so every statement below starts from real witnesses, does the algebra
  in ℝ and coerces the result back into the extended reals. Also here: the inclusion ℝ → EReal commutes with
  finite sums (and with a dot product of real families), the three float patterns the computation spells read as
  extended reals, and the regrouping of a sum over 10000 rows into a running total over 25 steps of two
  200-row blocks each.
-/
import Idealize.ShloMosaic.PureOps.Ideal

noncomputable section

open Idealize.ShloMosaic

namespace Cert.BatchNormLaw

open scoped BigOperators

/-! ## (1) The inclusion of the reals commutes with finite sums -/

/-- The inclusion ℝ → EReal of a finite sum of reals is the sum of the inclusions. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A dot product of two real families, taken in the extended reals, is the inclusion of the real dot product. -/
theorem coe_dot {ι : Type*} (s : Finset ι) (a b : ι → ℝ) :
    (∑ k ∈ s, ((a k : ℝ) : EReal) * ((b k : ℝ) : EReal)) = ((∑ k ∈ s, a k * b k : ℝ) : EReal) := by
  rw [← coe_sum]
  exact Finset.sum_congr rfl fun k _ => (EReal.coe_mul _ _).symm

/-- `coe_sum` over a whole finite type. -/
theorem coe_sum_univ {ι : Type*} [Fintype ι] (f : ι → ℝ) :
    (∑ i, ((f i : ℝ) : EReal)) = ((∑ i, f i : ℝ) : EReal) := coe_sum Finset.univ f

/-- `coe_dot` over a whole finite type. -/
theorem coe_dot_univ {ι : Type*} [Fintype ι] (a b : ι → ℝ) :
    (∑ k, ((a k : ℝ) : EReal) * ((b k : ℝ) : EReal)) = ((∑ k, a k * b k : ℝ) : EReal) := coe_dot Finset.univ a b

/-! ## (2) The variance identity over the reals -/

/-- The mean of the squared deviations from the mean is the mean of the squares less the square of the mean:
    with m = (Σ y) / N and N the number of terms, Σ (y − m)·(y − m) = Σ y·y − 2·m·Σ y + N·m·m = Σ y·y − N·m·m. -/
theorem variance_identity {ι : Type*} [Fintype ι] (y : ι → ℝ) (N : ℝ) (hN : (Fintype.card ι : ℝ) = N) (hN0 : N ≠ 0) :
    (∑ i, (y i - (∑ j, y j) / N) * (y i - (∑ j, y j) / N)) / N
      = (∑ i, y i * y i) / N - (∑ j, y j) / N * ((∑ j, y j) / N) := by
  have hexp : ∀ i, (y i - (∑ j, y j) / N) * (y i - (∑ j, y j) / N)
      = y i * y i - 2 * ((∑ j, y j) / N) * y i + (∑ j, y j) / N * ((∑ j, y j) / N) := fun i => by ring
  simp only [hexp, Finset.sum_add_distrib, Finset.sum_sub_distrib, ← Finset.mul_sum, Finset.sum_const,
    Finset.card_univ, nsmul_eq_mul, hN]
  field_simp
  ring

/-- The variance is not negative (a sum of squares over a positive count). -/
theorem variance_nonneg {ι : Type*} [Fintype ι] (y : ι → ℝ) (m N : ℝ) (hN : 0 ≤ N) :
    0 ≤ (∑ i, (y i - m) * (y i - m)) / N :=
  div_nonneg (Finset.sum_nonneg fun i _ => mul_self_nonneg _) hN

/-- The identity at 10000 terms, the divisor the real 10000. -/
theorem variance_identity_10000 (y : Fin 10000 → ℝ) :
    (∑ i, (y i - (∑ j, y j) / 10000) * (y i - (∑ j, y j) / 10000)) / 10000
      = (∑ i, y i * y i) / 10000 - (∑ j, y j) / 10000 * ((∑ j, y j) / 10000) :=
  variance_identity y 10000 (by simp) (by norm_num)

/-- So the mean of the squares less the square of the mean, at 10000 terms, is not negative. -/
theorem meansq_sub_sqmean_nonneg_10000 (y : Fin 10000 → ℝ) :
    0 ≤ (∑ i, y i * y i) / 10000 - (∑ j, y j) / 10000 * ((∑ j, y j) / 10000) := by
  rw [← variance_identity_10000]
  exact variance_nonneg y _ 10000 (by norm_num)

/-! ## (3) The three float patterns, as extended reals -/

/-- The pattern of `10000.0` denotes the real 10000: (2²³ + 1851392) · 2⁻¹⁰. -/
theorem ofBits_N : Ideal.ofBits .f32 0x461C4000#32 = ((10000 : ℝ) : EReal) := by
  simp [Ideal.ofBits, Ideal.ieee, -EReal.coe_mul]; norm_num

/-- The real the pattern `0x3727C5AC` (the ε of the normalisation, about 10⁻⁵) denotes: (2²³ + 2606508) · 2⁻⁴⁰. -/
def epsR : ℝ := 10995116 * (2 : ℝ) ^ (-40 : ℤ)

theorem epsR_pos : 0 < epsR := by unfold epsR; positivity

/-- The ε pattern denotes that real. -/
theorem ofBits_eps : Ideal.ofBits .f32 0x3727C5AC#32 = ((epsR : ℝ) : EReal) := by
  simp [Ideal.ofBits, Ideal.ieee, epsR, -EReal.coe_mul]

/-- What is used of ε afterwards: it is a positive real. -/
theorem ofBits_eps_pos : ∃ e : ℝ, 0 < e ∧ Ideal.ofBits .f32 0x3727C5AC#32 = ((e : ℝ) : EReal) :=
  ⟨epsR, epsR_pos, ofBits_eps⟩

/-- The pattern of `+0.0` denotes 0. -/
theorem ofBits_zero : Ideal.ofBits .f32 0x00000000#32 = 0 := by
  simp [Ideal.ofBits, Ideal.ieee]

/-! ## (4) The scalar law -/

/-- The quotient of two reals, the divisor not zero, taken in the extended reals, is the inclusion of the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- Division of a real by the `10000.0` pattern. -/
theorem div_N (x : ℝ) : Ideal.div (x : EReal) (Ideal.ofBits .f32 0x461C4000#32) = ((x / 10000 : ℝ) : EReal) := by
  rw [ofBits_N, div_coe_coe x (by norm_num)]

/-- The square root of a real that is not negative. -/
theorem sqrt_coe_of_nonneg {r : ℝ} (h : 0 ≤ r) : Ideal.sqrt (r : EReal) = ((Real.sqrt r : ℝ) : EReal) := by
  rw [Ideal.sqrt_coe, if_neg (not_lt.mpr h)]

/-- The reciprocal square root of a positive real. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

local notation "Nn" => Ideal.ofBits FTy.f32 0x461C4000#32
local notation "εw" => Ideal.ofBits FTy.f32 0x3727C5AC#32
local notation "zw" => Ideal.ofBits FTy.f32 0x00000000#32

/-- THE SCALAR LAW. For reals `yv S SS g b` and a real `Vr` that is the mean of the squares less the square of
    the mean and is not negative: scaling by `g · rsqrt (max (SS/N − (S/N)·(S/N)) 0 + ε)` and shifting by
    `b − (S/N) · scale` is normalising by `√(Vr + ε)`, scaling by `g` and shifting by `b`; the outer maximum with zero is
    the same on both sides. Every operation is the extended reals' (`Ideal.div`, `Ideal.rsqrt`, `Ideal.sqrt`, `max`,
    `+`, `-`, `*`), in the association the two computations have; `N`, `ε`, `0` are the patterns' values. -/
theorem scalar_law (yv S SS g b Vr : ℝ) (hV : Vr = SS / 10000 - S / 10000 * (S / 10000)) (hV0 : 0 ≤ Vr) :
    max ((yv : EReal) * ((g : EReal) * Ideal.rsqrt
            (max (Ideal.div (SS : EReal) Nn - Ideal.div (S : EReal) Nn * Ideal.div (S : EReal) Nn) zw + εw))
          + ((b : EReal) - Ideal.div (S : EReal) Nn * ((g : EReal) * Ideal.rsqrt
            (max (Ideal.div (SS : EReal) Nn - Ideal.div (S : EReal) Nn * Ideal.div (S : EReal) Nn) zw + εw)))) zw
      = max ((g : EReal) * Ideal.div ((yv : EReal) - Ideal.div (S : EReal) Nn) (Ideal.sqrt ((Vr : EReal) + εw))
          + (b : EReal)) zw := by
  have hpos : 0 < Vr + epsR := add_pos_of_nonneg_of_pos hV0 epsR_pos
  have hs : 0 < Real.sqrt (Vr + epsR) := Real.sqrt_pos.mpr hpos
  have hvar : max (Ideal.div (SS : EReal) Nn - Ideal.div (S : EReal) Nn * Ideal.div (S : EReal) Nn) zw
      = ((Vr : ℝ) : EReal) := by
    rw [div_N, div_N, ofBits_zero, ← EReal.coe_mul, ← EReal.coe_sub, ← hV]
    exact max_eq_left (EReal.coe_nonneg.mpr hV0)
  rw [hvar, div_N, ofBits_eps, ofBits_zero, ← EReal.coe_add, rsqrt_coe_of_pos hpos, sqrt_coe_of_nonneg hpos.le,
    ← EReal.coe_sub, div_coe_coe _ hs.ne']
  simp only [← EReal.coe_mul, ← EReal.coe_add, ← EReal.coe_sub]
  refine congrArg (fun t : ℝ => max (t : EReal) 0) ?_
  rw [div_eq_mul_inv]
  ring

/-- The same law with the reference's variance as it is computed: a real sum of squared deviations `Vsum`
    divided by the `10000.0` pattern. -/
theorem scalar_law_div (yv S SS g b Vsum : ℝ) (hV : Vsum / 10000 = SS / 10000 - S / 10000 * (S / 10000))
    (hV0 : 0 ≤ Vsum / 10000) :
    max ((yv : EReal) * ((g : EReal) * Ideal.rsqrt
            (max (Ideal.div (SS : EReal) Nn - Ideal.div (S : EReal) Nn * Ideal.div (S : EReal) Nn) zw + εw))
          + ((b : EReal) - Ideal.div (S : EReal) Nn * ((g : EReal) * Ideal.rsqrt
            (max (Ideal.div (SS : EReal) Nn - Ideal.div (S : EReal) Nn * Ideal.div (S : EReal) Nn) zw + εw)))) zw
      = max ((g : EReal) * Ideal.div ((yv : EReal) - Ideal.div (S : EReal) Nn)
            (Ideal.sqrt (Ideal.div (Vsum : EReal) Nn + εw)) + (b : EReal)) zw := by
  rw [div_N Vsum]
  exact scalar_law yv S SS g b (Vsum / 10000) hV hV0

/-- The law for a column `y` of 10000 reals: `S = Σ y`, `SS = Σ y·y`, and the reference's variance the sum of the
    squared deviations from `S / 10000`, divided by the `10000.0` pattern. -/
theorem scalar_law_col (y : Fin 10000 → ℝ) (yv g b : ℝ) :
    max ((yv : EReal) * ((g : EReal) * Ideal.rsqrt
            (max (Ideal.div ((∑ j, y j * y j : ℝ) : EReal) Nn
              - Ideal.div ((∑ j, y j : ℝ) : EReal) Nn * Ideal.div ((∑ j, y j : ℝ) : EReal) Nn) zw + εw))
          + ((b : EReal) - Ideal.div ((∑ j, y j : ℝ) : EReal) Nn * ((g : EReal) * Ideal.rsqrt
            (max (Ideal.div ((∑ j, y j * y j : ℝ) : EReal) Nn
              - Ideal.div ((∑ j, y j : ℝ) : EReal) Nn * Ideal.div ((∑ j, y j : ℝ) : EReal) Nn) zw + εw)))) zw
      = max ((g : EReal) * Ideal.div ((yv : EReal) - Ideal.div ((∑ j, y j : ℝ) : EReal) Nn)
            (Ideal.sqrt (Ideal.div ((∑ i, (y i - (∑ j, y j) / 10000) * (y i - (∑ j, y j) / 10000) : ℝ) : EReal) Nn + εw))
          + (b : EReal)) zw :=
  scalar_law_div yv _ _ g b _ (variance_identity_10000 y) (variance_nonneg y _ 10000 (by norm_num))

/-- The law in the shape the reference's value has: the column's mean and variance are the extended reals' own sums of
    the included values (`mean = div (Σ ↑y) N`, `var = div (Σ (↑y − mean)·(↑y − mean)) N`), the kernel's side is over
    the included real sums `↑(Σ y)` and `↑(Σ y·y)`. Only the real-valuedness of the column is supposed. -/
theorem scalar_law_gat (yr : Fin 10000 → ℝ) (yv g b : ℝ) :
    max ((yv : EReal) * ((g : EReal) * Ideal.rsqrt
            (max (Ideal.div ((∑ r, yr r * yr r : ℝ) : EReal) Nn
              - Ideal.div ((∑ r, yr r : ℝ) : EReal) Nn * Ideal.div ((∑ r, yr r : ℝ) : EReal) Nn) zw + εw))
          + ((b : EReal) - Ideal.div ((∑ r, yr r : ℝ) : EReal) Nn * ((g : EReal) * Ideal.rsqrt
            (max (Ideal.div ((∑ r, yr r * yr r : ℝ) : EReal) Nn
              - Ideal.div ((∑ r, yr r : ℝ) : EReal) Nn * Ideal.div ((∑ r, yr r : ℝ) : EReal) Nn) zw + εw)))) zw
      = max ((g : EReal) * Ideal.div ((yv : EReal) - Ideal.div (∑ r : Fin 10000, ((yr r : ℝ) : EReal)) Nn)
            (Ideal.sqrt (Ideal.div (∑ r : Fin 10000,
                (((yr r : ℝ) : EReal) - Ideal.div (∑ r : Fin 10000, ((yr r : ℝ) : EReal)) Nn)
                  * (((yr r : ℝ) : EReal) - Ideal.div (∑ r : Fin 10000, ((yr r : ℝ) : EReal)) Nn)) Nn + εw))
          + (b : EReal)) zw := by
  rw [scalar_law_col yr yv g b, coe_sum_univ, div_N]
  simp only [← EReal.coe_sub, ← EReal.coe_mul]
  rw [coe_sum_univ]

/-! ## (5) A sum over 10000 rows as a running total over 25 steps of two 200-row blocks -/

/-- Over a function of the naturals: a running total that starts at zero and at step `t` adds the block of rows
    `200·t … 200·t + 199` and the block of rows `5000 + 200·t … 5000 + 200·t + 199` is, after 25 steps, the sum over
    the rows below 10000. (After `t` steps it is the sum over the rows below `200·t` of the first half and of the
    second half; the two halves of 5000 make the whole.) -/
theorem blocked_total_nat {M : Type*} [AddCommMonoid M] (g : ℕ → M) (run : ℕ → M) (h0 : run 0 = 0)
    (hstep : ∀ t, t < 25 → run (t + 1) = run t + ((∑ q ∈ Finset.range 200, g (200 * t + q))
      + (∑ q ∈ Finset.range 200, g (5000 + 200 * t + q)))) :
    run 25 = ∑ r ∈ Finset.range 10000, g r := by
  have inv : ∀ t, t ≤ 25 → run t
      = (∑ i ∈ Finset.range (200 * t), g i) + (∑ i ∈ Finset.range (200 * t), g (5000 + i)) := by
    intro t
    induction t with
    | zero => intro _; simp [h0]
    | succ t ih =>
      intro ht
      have ht' : t < 25 := ht
      rw [hstep t ht', ih ht'.le, show 200 * (t + 1) = 200 * t + 200 by ring, Finset.sum_range_add,
        Finset.sum_range_add]
      simp only [Nat.add_assoc]
      exact add_add_add_comm _ _ _ _
  rw [inv 25 le_rfl]
  exact (Finset.sum_range_add g 5000 5000).symm

/-- The same over the rows `Fin 10000`. -/
theorem blocked_total {M : Type*} [AddCommMonoid M] (f : Fin 10000 → M) (run : ℕ → M) (h0 : run 0 = 0)
    (hstep : ∀ (t : ℕ) (ht : t < 25), run (t + 1) = run t + ((∑ q : Fin 200, f ⟨200 * t + q, by omega⟩)
      + (∑ q : Fin 200, f ⟨5000 + 200 * t + q, by omega⟩))) :
    run 25 = ∑ r, f r := by
  let g : ℕ → M := fun i => if h : i < 10000 then f ⟨i, h⟩ else 0
  have hg : ∀ (i : ℕ) (h : i < 10000), g i = f ⟨i, h⟩ := fun i h => dif_pos h
  have hnat := blocked_total_nat g run h0 (fun t ht => by
    rw [hstep t ht, ← Fin.sum_univ_eq_sum_range (fun q => g (200 * t + q)) 200,
      ← Fin.sum_univ_eq_sum_range (fun q => g (5000 + 200 * t + q)) 200]
    congr 2
    · exact Finset.sum_congr rfl fun q _ => (hg _ _).symm
    · exact Finset.sum_congr rfl fun q _ => (hg _ _).symm)
  rw [hnat, ← Fin.sum_univ_eq_sum_range g 10000]
  exact Finset.sum_congr rfl fun r _ => hg r r.isLt

/-- The same with the two blocks' rows given by any index functions whose values are those rows: the form to
    use when a block's row is written some other way than `⟨200·t + q, _⟩`. -/
theorem blocked_total_idx {M : Type*} [AddCommMonoid M] (f : Fin 10000 → M) (run : ℕ → M)
    (ia ib : ℕ → Fin 200 → Fin 10000)
    (hia : ∀ t, t < 25 → ∀ q : Fin 200, ((ia t q : Fin 10000) : ℕ) = 200 * t + q)
    (hib : ∀ t, t < 25 → ∀ q : Fin 200, ((ib t q : Fin 10000) : ℕ) = 5000 + 200 * t + q)
    (h0 : run 0 = 0)
    (hstep : ∀ t, t < 25 → run (t + 1) = run t + ((∑ q : Fin 200, f (ia t q)) + (∑ q : Fin 200, f (ib t q)))) :
    run 25 = ∑ r, f r := by
  refine blocked_total f run h0 fun t ht => ?_
  rw [hstep t ht]
  congr 2
  · exact Finset.sum_congr rfl fun q _ => congrArg f (Fin.ext (hia t ht q))
  · exact Finset.sum_congr rfl fun q _ => congrArg f (Fin.ext (hib t ht q))

end Cert.BatchNormLaw

end
-- ==== Proof.GcnSums.lean ====
/-
  The running column sums. Each point adds to the running sum of column j the column sums of its two y blocks,
  rows [200t, 200t+200) and [5000+200t, 5000+200t+200) of y; started from zero and run over the 25 points this is
  the sum of column j of y over all 10000 rows, and likewise for the squares.
-/
import proofs.«102800_g85255100825815_cont_sun_c4_478_9_alg».proof.Proof.GcnRows
import proofs.«102800_g85255100825815_cont_sun_c4_478_9_alg».proof.Proof.BatchNormLaw

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- Row q of point t's first and second block, as a row of y. -/
def rowA (t : ℕ) (q : Fin 200) : Fin 10000 := if h : 200 * t + q.val < 10000 then ⟨200 * t + q.val, h⟩ else ⟨0, by decide⟩
def rowB (t : ℕ) (q : Fin 200) : Fin 10000 := if h : 5000 + 200 * t + q.val < 10000 then ⟨5000 + 200 * t + q.val, h⟩ else ⟨0, by decide⟩

theorem rowA_val (t : ℕ) (ht : t < 25) (q : Fin 200) : ((rowA t q : Fin 10000) : ℕ) = 200 * t + q.val := by
  unfold rowA; rw [dif_pos (by have := q.isLt; omega)]
theorem rowB_val (t : ℕ) (ht : t < 25) (q : Fin 200) : ((rowB t q : Fin 10000) : ℕ) = 5000 + 200 * t + q.val := by
  unfold rowB; rw [dif_pos (by have := q.isLt; omega)]

/-- The running sums before point n, at column j. -/
def runS (j : Fin 128) (n : ℕ) : EReal := if h : n ≤ cfg0.N then (sumsAt m c n h).1 (ix2 (0 : Fin 1) j) else 0
def runQ (j : Fin 128) (n : ℕ) : EReal := if h : n ≤ cfg0.N then (sumsAt m c n h).2 (ix2 (0 : Fin 1) j) else 0

theorem yA_row (t : ℕ) (ht : t < cfg0.N) (q : Fin 200) (j : Fin 128) :
    k0_pay6 (F := Ideal) (iblk m c 0 ⟨t, ht⟩) (zAt m c) (ix2 q j) = yv m c (rowA t q) j := by
  have h25 : t < 25 := lt_of_lt_of_eq ht hN25
  have hq := q.isLt
  refine (yA_apply m c ⟨t, ht⟩ q j (by show 200 * t + q.val < 10000; omega)).trans ?_
  refine congrArg (fun rr => yv m c rr j) (Fin.ext ?_)
  exact (rowA_val t h25 q).symm

theorem yB_row (t : ℕ) (ht : t < cfg0.N) (q : Fin 200) (j : Fin 128) :
    k0_pay7 (F := Ideal) (iblk m c 1 ⟨t, ht⟩) (zAt m c) (ix2 q j) = yv m c (rowB t q) j := by
  have h25 : t < 25 := lt_of_lt_of_eq ht hN25
  have hq := q.isLt
  refine (yB_apply m c ⟨t, ht⟩ q j (by show 5000 + 200 * t + q.val < 10000; omega)).trans ?_
  refine congrArg (fun rr => yv m c rr j) (Fin.ext ?_)
  exact (rowB_val t h25 q).symm

theorem runS_step (j : Fin 128) (t : ℕ) (ht : t < 25) :
    runS m c j (t + 1) = runS m c j t + ((∑ q : Fin 200, yv m c (rowA t q) j) + (∑ q : Fin 200, yv m c (rowB t q) j)) := by
  have ht' : t < cfg0.N := lt_of_lt_of_eq ht hN25.symm
  unfold runS
  rw [dif_pos (show t + 1 ≤ cfg0.N from ht'), dif_pos (show t ≤ cfg0.N from Nat.le_of_lt ht')]
  refine (congrFun (congrArg Prod.fst (sumsAt_succ m c ⟨t, ht'⟩)) _).trans ?_
  refine (pay8_apply (iblk m c 0 ⟨t, ht'⟩) (iblk m c 1 ⟨t, ht'⟩) (zAt m c) _ j).trans ?_
  simp only [yA_row m c t ht', yB_row m c t ht']

theorem runQ_step (j : Fin 128) (t : ℕ) (ht : t < 25) :
    runQ m c j (t + 1) = runQ m c j t + ((∑ q : Fin 200, yv m c (rowA t q) j * yv m c (rowA t q) j) + (∑ q : Fin 200, yv m c (rowB t q) j * yv m c (rowB t q) j)) := by
  have ht' : t < cfg0.N := lt_of_lt_of_eq ht hN25.symm
  unfold runQ
  rw [dif_pos (show t + 1 ≤ cfg0.N from ht'), dif_pos (show t ≤ cfg0.N from Nat.le_of_lt ht')]
  refine (congrFun (congrArg Prod.snd (sumsAt_succ m c ⟨t, ht'⟩)) _).trans ?_
  refine (pay1_apply (yB m c ⟨t, ht'⟩) _ (k0_pay9 (F := Ideal) (iblk m c 0 ⟨t, ht'⟩) (zAt m c)) j).trans ?_
  rw [pay9_apply]
  unfold yB
  simp only [yA_row m c t ht', yB_row m c t ht']

theorem runS_zero (j : Fin 128) : runS m c j 0 = 0 := by
  unfold runS
  rw [dif_pos (Nat.zero_le _)]
  show k0_pay4 (F := Ideal) (ix2 (0 : Fin 1) j) = 0
  rw [pay4_apply]; exact Cert.BatchNormLaw.ofBits_zero
theorem runQ_zero (j : Fin 128) : runQ m c j 0 = 0 := by
  unfold runQ
  rw [dif_pos (Nat.zero_le _)]
  show k0_pay5 (F := Ideal) (ix2 (0 : Fin 1) j) = 0
  rw [pay5_apply]; exact Cert.BatchNormLaw.ofBits_zero

theorem sumsAt_congr {n n' : ℕ} (e : n = n') (h : n ≤ cfg0.N) (h' : n' ≤ cfg0.N) : sumsAt m c n h = sumsAt m c n' h' := by
  subst e; rfl

/-- After the last point the running sum of column j is the column's sum over all rows of y; -/
theorem sumS_total (j : Fin 128) :
    (sumsAt m c cfg0.N (Nat.le_refl _)).1 (ix2 (0 : Fin 1) j) = ∑ r : Fin 10000, yv m c r j := by
  have h := Cert.BatchNormLaw.blocked_total_idx (fun r : Fin 10000 => yv m c r j) (runS m c j) rowA rowB
    (fun t ht q => rowA_val t ht q) (fun t ht q => rowB_val t ht q) (runS_zero m c j) (fun t ht => runS_step m c j t ht)
  rw [← h]
  unfold runS
  rw [dif_pos (show 25 ≤ cfg0.N from le_of_eq hN25.symm)]
  exact congrFun (congrArg Prod.fst (sumsAt_congr m c hN25 _ _)) _
/-- and the running sum of squares is the column's sum of squares. -/
theorem sumQ_total (j : Fin 128) :
    (sumsAt m c cfg0.N (Nat.le_refl _)).2 (ix2 (0 : Fin 1) j) = ∑ r : Fin 10000, yv m c r j * yv m c r j := by
  have h := Cert.BatchNormLaw.blocked_total_idx (fun r : Fin 10000 => yv m c r j * yv m c r j) (runQ m c j) rowA rowB
    (fun t ht q => rowA_val t ht q) (fun t ht q => rowB_val t ht q) (runQ_zero m c j) (fun t ht => runQ_step m c j t ht)
  rw [← h]
  unfold runQ
  rw [dif_pos (show 25 ≤ cfg0.N from le_of_eq hN25.symm)]
  exact congrFun (congrArg Prod.snd (sumsAt_congr m c hN25 _ _)) _

end Cert.KernelIdeal.HandValue

end
-- ==== Proof.Finite.lean ====
/-
  Finiteness of the inputs. The precondition says, array by array, that every entry's absolute value is below the
  f32 word of +infinity, and takes the conjunction of the five answers. Read back at the extended reals: the word is
  ⊤, the absolute value of x is max x (−x), which is ⊤ exactly when x is ⊤ or ⊥; so every entry of every argument array
  is a real number. The laws that join the two programs (distributivity, cancelling a divisor, a/√v = a·(1/√v)) hold
  for reals and fail at the infinities, which is why they are applied to these real witnesses.
-/
import proofs.«102800_g85255100825815_cont_sun_c4_478_9_alg».proof.Pre_finite_inputs
import Idealize.ShloMosaic.Lib.ReduceAll
import Idealize.ShloMosaic.Lib.ValueIdx
import Idealize.ShloMosaic.PureOps.Ideal

noncomputable section

namespace Cert.GcnFinite

open Idealize.ShloMosaic

/-- The scalar shape has one index. -/
instance subsingleton_scalar_idx : Subsingleton (⟨0, ![]⟩ : Shape).Idx := ⟨fun a b => funext fun d => d.elim0⟩

/-- The f32 word `0x7F800000` is +infinity. -/
theorem ofBits_inf_f32 : Ideal.ofBits .f32 0x7F800000#32 = (⊤ : EReal) := by simp [Ideal.ofBits, Ideal.ieee]

/-- An extended real whose absolute value `max x (−x)` is below +infinity is a real: at ⊤ and at ⊥ the absolute
    value is ⊤. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One array: if the conjunction over all entries of "|entry| < +infinity" is true, every entry is a real. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hS : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hS ValueIdx.ix0 = 1#1) :
    ∀ i : s.Idx, ∃ r : ℝ, a i = (r : EReal) := fun i =>
  real_of_abs_lt_inf (a i) (Host.reduce_andi_all _ _ hr hS _ e i)

variable [Cert.Pre_finite_inputs.Facts]

open Cert.Pre_finite_inputs in
/-- The precondition, read back: every entry of each of the five argument arrays is a real number. -/
theorem finite_of_pre (a0 : FVec Ideal S10000x10000 .f32) (a1 : FVec Ideal S10000x128 .f32)
    (a2 : FVec Ideal S128x128 .f32) (a3 a4 : FVec Ideal S128 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨e0, e1⟩, e2⟩, e3⟩, e4⟩ := h0
  exact ⟨all_real a0 _ _ _ e0, all_real a1 _ _ _ e1, all_real a2 _ _ _ e2, all_real a3 _ _ _ e3,
    all_real a4 _ _ _ e4⟩

end Cert.GcnFinite

end
-- ==== Proof.GcnFinal.lean ====
/-
  The kernel's result is the reference's. With every input finite, y = adj·(x·W) is a table of reals; the last
  point stores, at (r, j), the normalisation of y(r, j) by the column's sum and sum of squares over all 10000
  rows, which over the reals is the reference's batch normalisation by the column's mean and mean squared
  deviation (the kernel's clamp of the variance at zero changes nothing: the variance is nonnegative; its
  reciprocal square root is the reference's division by the square root). The one write-back then leaves that
  table in the output array.
-/
import proofs.«102800_g85255100825815_cont_sun_c4_478_9_alg».proof.Proof.GcnSums
import proofs.«102800_g85255100825815_cont_sun_c4_478_9_alg».proof.Proof.Finite

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (RDat)

variable (m : (ℓ : Loc nD τ sig) → Buf (Elt Ideal) ℓ) (c : Dev nD)

/-- With adj, x and W real, y is real. -/
theorem yv_real (hA : ∀ i, ∃ r : ℝ, aAdj m c i = (r : EReal)) (hX : ∀ i, ∃ r : ℝ, aX m c i = (r : EReal)) (hW : ∀ i, ∃ r : ℝ, aW m c i = (r : EReal)) :
    ∃ yr : Fin 10000 → Fin 128 → ℝ, ∀ r j, yv m c r j = ((yr r j : ℝ) : EReal) := by
  choose fa ha using hA
  choose fx hx using hX
  choose fw hw using hW
  refine ⟨fun r j => ∑ k : Fin 10000, fa (ix2 r k) * ∑ l : Fin 128, fx (ix2 k l) * fw (ix2 l j), fun r j => ?_⟩
  unfold yv Cert.GcnSpec.y
  simp only [ha, hx, hw, Cert.BatchNormLaw.coe_dot_univ]

/-- What the last point leaves at (r, j), over the column's sums. -/
theorem out_apply (Y : Vec Ideal S10000x128 .f32) (hF : (rdat m c).Finds 6 tL Y) (r : Fin 10000) (j : Fin 128) :
    outStep m c tL Y (ix2 r j)
      = max (yv m c r j * (aGamma m c (ix1 j) * Ideal.rsqrt (max (Ideal.div (∑ r' : Fin 10000, yv m c r' j * yv m c r' j) (Ideal.ofBits .f32 0x461C4000#32)
                - Ideal.div (∑ r' : Fin 10000, yv m c r' j) (Ideal.ofBits .f32 0x461C4000#32) * Ideal.div (∑ r' : Fin 10000, yv m c r' j) (Ideal.ofBits .f32 0x461C4000#32)) (Ideal.ofBits .f32 0x00000000#32)
              + Ideal.ofBits .f32 0x3727C5AC#32))
          + (aBeta m c (ix1 j) - Ideal.div (∑ r' : Fin 10000, yv m c r' j) (Ideal.ofBits .f32 0x461C4000#32)
              * (aGamma m c (ix1 j) * Ideal.rsqrt (max (Ideal.div (∑ r' : Fin 10000, yv m c r' j * yv m c r' j) (Ideal.ofBits .f32 0x461C4000#32)
                - Ideal.div (∑ r' : Fin 10000, yv m c r' j) (Ideal.ofBits .f32 0x461C4000#32) * Ideal.div (∑ r' : Fin 10000, yv m c r' j) (Ideal.ofBits .f32 0x461C4000#32)) (Ideal.ofBits .f32 0x00000000#32)
              + Ideal.ofBits .f32 0x3727C5AC#32)))) (Ideal.ofBits .f32 0x00000000#32) := by
  unfold outStep
  rw [if_pos (show (tL : Fin cfg0.N).val = 24 from rfl)]
  refine (pay2_apply _ _ _ _ _ r j).trans ?_
  rw [sumS_total, sumQ_total, iblk4_apply, iblk5_apply, rowsStep_last m c Y hF]

/-- The last point's result at (r, j) is the reference's. -/
theorem out_eq_Gat (hA : ∀ i, ∃ r : ℝ, aAdj m c i = (r : EReal)) (hX : ∀ i, ∃ r : ℝ, aX m c i = (r : EReal)) (hW : ∀ i, ∃ r : ℝ, aW m c i = (r : EReal))
    (hG : ∀ i, ∃ r : ℝ, aGamma m c i = (r : EReal)) (hB : ∀ i, ∃ r : ℝ, aBeta m c i = (r : EReal))
    (Y : Vec Ideal S10000x128 .f32) (hF : (rdat m c).Finds 6 tL Y) (r : Fin 10000) (j : Fin 128) :
    outStep m c tL Y (ix2 r j) = Cert.GcnSpec.Gat (aAdj m c) (aX m c) (aW m c) (aGamma m c) (aBeta m c) r j := by
  obtain ⟨yr, hy⟩ := yv_real m c hA hX hW
  obtain ⟨g, hg⟩ := hG (ix1 j)
  obtain ⟨b, hb⟩ := hB (ix1 j)
  rw [out_apply m c Y hF r j]
  have hy' : ∀ r' j', Cert.GcnSpec.y (aAdj m c) (aX m c) (aW m c) r' j' = ((yr r' j' : ℝ) : EReal) := hy
  have e1 : (∑ r' : Fin 10000, yv m c r' j) = ((∑ r' : Fin 10000, yr r' j : ℝ) : EReal) := by
    simp only [hy]; exact Cert.BatchNormLaw.coe_sum_univ (fun r' => yr r' j)
  have e2 : (∑ r' : Fin 10000, yv m c r' j * yv m c r' j) = ((∑ r' : Fin 10000, yr r' j * yr r' j : ℝ) : EReal) := by
    simp only [hy]; exact Cert.BatchNormLaw.coe_dot_univ (fun r' => yr r' j) (fun r' => yr r' j)
  rw [e1, e2, hy r j, hg, hb]
  refine (Cert.BatchNormLaw.scalar_law_gat (fun r' => yr r' j) (yr r j) g b).trans ?_
  unfold Cert.GcnSpec.Gat Cert.GcnSpec.var Cert.GcnSpec.mean
  simp only [hy', hg, hb]

/-- The output array after the run is the reference's table. -/
theorem out_final (hA : ∀ i, ∃ r : ℝ, aAdj m c i = (r : EReal)) (hX : ∀ i, ∃ r : ℝ, aX m c i = (r : EReal)) (hW : ∀ i, ∃ r : ℝ, aW m c i = (r : EReal))
    (hG : ∀ i, ∃ r : ℝ, aGamma m c i = (r : EReal)) (hB : ∀ i, ∃ r : ℝ, aBeta m c i = (r : EReal))
    (F0 : Buf (Elt Ideal) ((cfg0.win 6).arr.view.loc (c.tc : Thread nD τ))) (h : (rdat m c).ArrAt 6 cfg0.N F0) :
    F0 = Cert.GcnSpec.G (aAdj m c) (aX m c) (aW m c) (aGamma m c) (aBeta m c) := by
  have h25 : (rdat m c).ArrAt 6 ((tL : Fin cfg0.N).val + 1) F0 := Eq.mp (congrArg (fun n => (rdat m c).ArrAt 6 n F0) hN25) h
  rw [(rdat m c).ArrAt_succ 6 tL, if_pos ((flush0_6 tL).mpr rfl)] at h25
  obtain ⟨G₀, X, -, ⟨Y, hY, hYX⟩, rfl⟩ := h25
  have hX' : X = outStep m c tL Y := (after6 m c tL Y X).mp hYX
  funext i
  obtain ⟨r, j, rfl⟩ : ∃ (r : Fin 10000) (j : Fin 128), i = ix2 r j := ⟨i 0, i 1, eq_ix2 i⟩
  have hw := View.write_emb_of_mem (v := ((cfg0.win 6).blk tL).view) G₀ ((cfg0.win 6).cut (cfg0.grid.coords tL) X) (Finset.mem_univ (ix2 r j : S10000x128.Idx))
  rw [emb6 tL (ix2 r j)] at hw
  refine hw.trans ?_
  show X (ix2 r j) = _
  rw [hX', out_eq_Gat m c hA hX hW hG hB Y hY r j]
  rfl

end Cert.KernelIdeal.HandValue

end
-- ==== Proof.RefIsG.lean ====
/-
  The reference program computes the specification. Its run leaves in the result buffer the composition of its 35
  host operations applied to the five argument arrays; read at the index (r, c), operation by operation:
  the two dot_generals are the double sum y r c = Σ_k adj r k · Σ_j x k j · W j c; the first reduce over the rows,
  divided by the word of 10000.0, is the column's mean (the reduce's initial zero word is the extended real 0 and
  0 + s = s); the second reduce, of the squared deviations, divided by the same word, is the column's variance; the
  broadcasts of a per-column vector [128] → [1,128] → [10000,128] read the vector at the column c; and the remaining
  pointwise operations are the extended reals' own: the quotient by the root of variance plus eps, the product with
  gamma c, the sum with beta c, and the maximum with the zero word.
-/
import proofs.«102800_g85255100825815_cont_sun_c4_478_9_alg».proof.Proof.Spec
import proofs.«102800_g85255100825815_cont_sun_c4_478_9_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.GcnSpec

/-! ## The index maps of the operations, at an index given by its coordinates -/

/-- adj · z at (r, c) reads adj at (r, k) … -/
theorem lidx1_eq (r : Fin 10000) (c : Fin 128) (k : Fin 10000) : lidx_main_v1 (ix2 r c) k = ix2 r k :=
  funext fun a => Fin.ext (by match a with | ⟨0, _⟩ => rfl | ⟨1, _⟩ => rfl)
/-- … and z at (k, c). -/
theorem ridx1_eq (r : Fin 10000) (c : Fin 128) (k : Fin 10000) : ridx_main_v1 (ix2 r c) k = ix2 k c :=
  funext fun a => Fin.ext (by match a with | ⟨0, _⟩ => rfl | ⟨1, _⟩ => rfl)
/-- x · W at (k, c) reads x at (k, j) … -/
theorem lidx0_eq (k : Fin 10000) (c : Fin 128) (j : Fin 128) : lidx_main_v0 (ix2 k c) j = ix2 k j :=
  funext fun a => Fin.ext (by match a with | ⟨0, _⟩ => rfl | ⟨1, _⟩ => rfl)
/-- … and W at (j, c). -/
theorem ridx0_eq (k : Fin 10000) (c : Fin 128) (j : Fin 128) : ridx_main_v0 (ix2 k c) j = ix2 j c :=
  funext fun a => Fin.ext (by match a with | ⟨0, _⟩ => rfl | ⟨1, _⟩ => rfl)
/-- The sum over the rows for column c reads row k of column c (the mean's reduce) … -/
theorem idx2_eq (c : Fin 128) (k : Fin 10000) : idx_main_v2 (ix1 c) k = ix2 k c :=
  funext fun a => Fin.ext (by match a with | ⟨0, _⟩ => rfl | ⟨1, _⟩ => rfl)
/-- … and so does the variance's. -/
theorem idx9_eq (c : Fin 128) (k : Fin 10000) : idx_main_v9 (ix1 c) k = ix2 k c :=
  funext fun a => Fin.ext (by match a with | ⟨0, _⟩ => rfl | ⟨1, _⟩ => rfl)
/-- A per-column vector broadcast [128] → [1,128] → [10000,128] is read at the column: the five such pairs. -/
theorem idx5_6_eq (r : Fin 10000) (c : Fin 128) : idx_main_v5 (idx_main_v6 (ix2 r c)) = ix1 c :=
  funext fun a => Fin.ext (by match a with | ⟨0, _⟩ => rfl)
theorem idx12_13_eq (r : Fin 10000) (c : Fin 128) : idx_main_v12 (idx_main_v13 (ix2 r c)) = ix1 c :=
  funext fun a => Fin.ext (by match a with | ⟨0, _⟩ => rfl)
theorem idx18_19_eq (r : Fin 10000) (c : Fin 128) : idx_main_v18 (idx_main_v19 (ix2 r c)) = ix1 c :=
  funext fun a => Fin.ext (by match a with | ⟨0, _⟩ => rfl)
theorem idx21_22_eq (r : Fin 10000) (c : Fin 128) : idx_main_v21 (idx_main_v22 (ix2 r c)) = ix1 c :=
  funext fun a => Fin.ext (by match a with | ⟨0, _⟩ => rfl)
theorem idx24_25_eq (r : Fin 10000) (c : Fin 128) : idx_main_v24 (idx_main_v25 (ix2 r c)) = ix1 c :=
  funext fun a => Fin.ext (by match a with | ⟨0, _⟩ => rfl)

/-! ## The stages at an index -/

/-- x · W at (k, c). -/
theorem v0_at (a1 : (⟨S10000x128, .f32⟩ : BufTy).Contents (Elt Ideal)) (a2 : (⟨S128x128, .f32⟩ : BufTy).Contents (Elt Ideal))
    (k : Fin 10000) (c : Fin 128) :
    val_main_v0 (F := Ideal) a1 a2 (ix2 k c) = ∑ j : Fin 128, a1 (ix2 k j) * a2 (ix2 j c) := by
  rw [val_main_v0_apply]
  refine Finset.sum_congr rfl fun j _ => ?_
  rw [lidx0_eq, ridx0_eq]

/-- adj · (x · W) at (r, c) is the specification's y. -/
theorem v1_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (r : Fin 10000) (c : Fin 128) : val_main_v1 (F := Ideal) a0 a1 a2 (ix2 r c) = y a0 a1 a2 r c := by
  rw [val_main_v1_apply]
  unfold y
  refine Finset.sum_congr rfl fun k _ => ?_
  rw [lidx1_eq, ridx1_eq, v0_at]

/-- The first reduce divided by the row count is the column's mean. -/
theorem v4_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (c : Fin 128) : val_main_v4 (F := Ideal) a0 a1 a2 (ix1 c) = mean a0 a1 a2 c := by
  rw [val_main_v4_apply, val_main_v2_apply, val_main_v3_apply, val_main_cst_apply, val_main_cst_0_apply]
  simp only [Ideal.hostDivf_def, Ideal.ofBits_def, Ideal.ofBits_zero_f32, zero_add]
  unfold mean
  refine congrArg (fun s => Ideal.div s _) (Finset.sum_congr rfl fun k _ => ?_)
  rw [idx2_eq, v1_at]

/-- The mean broadcast over the rows, as the squared deviations read it … -/
theorem v6_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (r : Fin 10000) (c : Fin 128) : val_main_v6 (F := Ideal) a0 a1 a2 (ix2 r c) = mean a0 a1 a2 c := by
  rw [val_main_v6_apply, val_main_v5_apply, idx5_6_eq, v4_at]

/-- … and as the normalisation reads it. -/
theorem v13_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (r : Fin 10000) (c : Fin 128) : val_main_v13 (F := Ideal) a0 a1 a2 (ix2 r c) = mean a0 a1 a2 c := by
  rw [val_main_v13_apply, val_main_v12_apply, idx12_13_eq, v4_at]

/-- The second reduce, of the squared deviations, divided by the row count is the column's variance. -/
theorem v11_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (c : Fin 128) : val_main_v11 (F := Ideal) a0 a1 a2 (ix1 c) = var a0 a1 a2 c := by
  rw [val_main_v11_apply, val_main_v9_apply, val_main_v10_apply, val_main_cst_1_apply, val_main_cst_2_apply]
  simp only [Ideal.hostDivf_def, Ideal.ofBits_def, Ideal.ofBits_zero_f32, zero_add]
  unfold var
  refine congrArg (fun s => Ideal.div s _) (Finset.sum_congr rfl fun k _ => ?_)
  rw [idx9_eq, val_main_v8_apply, val_main_v7_apply, v1_at, v6_at]
  rfl

/-- The root of variance plus eps, broadcast over the rows. -/
theorem v19_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (r : Fin 10000) (c : Fin 128) :
    val_main_v19 (F := Ideal) a0 a1 a2 (ix2 r c) = Ideal.sqrt (var a0 a1 a2 c + Ideal.ofBits .f32 0x3727C5AC#32) := by
  rw [val_main_v19_apply, val_main_v18_apply, idx18_19_eq, val_main_v17_apply, val_main_v16_apply, v11_at,
    val_main_v15_apply, val_main_cst_3_apply]
  rfl

/-- gamma broadcast over the rows reads gamma at the column … -/
theorem v22_at (a3 a4 : (⟨S128, .f32⟩ : BufTy).Contents (Elt Ideal)) (r : Fin 10000) (c : Fin 128) :
    val_main_v22 (F := Ideal) a3 (ix2 r c) = a3 (ix1 c) := by
  rw [val_main_v22_apply, val_main_v21_apply, idx21_22_eq]

/-- … and beta likewise. -/
theorem v25_at (a3 a4 : (⟨S128, .f32⟩ : BufTy).Contents (Elt Ideal)) (r : Fin 10000) (c : Fin 128) :
    val_main_v25 (F := Ideal) a4 (ix2 r c) = a4 (ix1 c) := by
  rw [val_main_v25_apply, val_main_v24_apply, idx24_25_eq]

/-- The last stage at (r, c) is the specification's entry. -/
theorem v27_at (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (a3 a4 : (⟨S128, .f32⟩ : BufTy).Contents (Elt Ideal)) (r : Fin 10000) (c : Fin 128) :
    val_main_v27 (F := Ideal) a0 a1 a2 a3 a4 (ix2 r c) = Gat a0 a1 a2 a3 a4 r c := by
  rw [val_main_v27_apply, val_main_v26_apply, val_main_v23_apply, val_main_v20_apply, val_main_v14_apply, v22_at a3 a4,
    v25_at a3 a4, v13_at, v19_at, v1_at, val_main_call0_v0_apply, val_main_call0_cst_apply]
  rfl

/-! ## The reference is the specification -/

/-- The last stage of the reference, as an array, is `G` of the argument arrays. -/
theorem ref_is_G (a0 : (⟨S10000x10000, .f32⟩ : BufTy).Contents (Elt Ideal)) (a1 : (⟨S10000x128, .f32⟩ : BufTy).Contents (Elt Ideal)) (a2 : (⟨S128x128, .f32⟩ : BufTy).Contents (Elt Ideal))
    (a3 a4 : (⟨S128, .f32⟩ : BufTy).Contents (Elt Ideal)) :
    val_main_v27 (F := Ideal) a0 a1 a2 a3 a4 = G a0 a1 a2 a3 a4 := by
  funext i
  obtain ⟨r, c, rfl⟩ : ∃ (r : Fin 10000) (c : Fin 128), i = ix2 r c := ⟨i 0, i 1, eq_ix2 i⟩
  exact v27_at a0 a1 a2 a3 a4 r c

/-- Every run of the reference ends with the specification of its argument arrays in the result buffer, and the
    arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by rw [(h c).1, val_main_v27_eq, ref_is_G], (h c).2⟩)
    (Cert.ReferenceIdeal.Value.run (F := Ideal) m ρ)

end Cert.ReferenceIdeal.RefValue

end
-- ==== Proof.lean ====
/-
  A graph-convolution layer with batch normalisation: z = x·W, y = adj·z, each column of y normalised by its
  mean and variance over the 10000 rows, scaled by gamma, shifted by beta, rectified.

  The kernel streams adj through two row-half windows over 25 grid points. The first point computes z into a
  scratch buffer; every point writes its two 200-row blocks of y into an output block resident for the whole grid
  and adds their column sums and column sums of squares to two running sums; the last point turns the sums into
  the column's mean and variance (mean of squares minus squared mean, clamped at zero) and normalises the whole
  block in place. The reference computes the variance as the mean squared deviation and divides by its square root.

  Frames. The two adj windows read ONE array, which they hold in two halves of its share; with that the region's
  launch goes through for any float instance (the body obligation point by point: KernelIdealBody / KernelBody),
  once for the word-level kernel and once for the idealized one. The reference's frame is its generated run.

  Values. At the extended reals, with every input finite, y is a table of reals; the running sums over the 25
  points are the sums over all rows; mean of squares minus squared mean IS the mean squared deviation, which is
  nonnegative, so the clamp is the identity; the reciprocal square root of a positive real is one over its square
  root; the rest is ring algebra over the reals (BatchNormLaw). So the block the last point stores, written back
  once, is the reference's table (GcnFinal), and the reference's run ends at the same table (RefIsG).
-/
import proofs.«102800_g85255100825815_cont_sun_c4_478_9_alg».proof.Defs
import proofs.«102800_g85255100825815_cont_sun_c4_478_9_alg».proof.Proof.Gen.Kernel
import proofs.«102800_g85255100825815_cont_sun_c4_478_9_alg».proof.Proof.Gen.KernelIdeal
import proofs.«102800_g85255100825815_cont_sun_c4_478_9_alg».proof.Proof.Gen.ReferenceIdeal
import proofs.«102800_g85255100825815_cont_sun_c4_478_9_alg».proof.Proof.Gen.Pre_finite_inputs
import proofs.«102800_g85255100825815_cont_sun_c4_478_9_alg».proof.Proof.Gen.ReferenceIdeal.Run
import proofs.«102800_g85255100825815_cont_sun_c4_478_9_alg».proof.Proof.Gen.ReferenceIdeal.Read
import proofs.«102800_g85255100825815_cont_sun_c4_478_9_alg».proof.Proof.KernelLaunch
import proofs.«102800_g85255100825815_cont_sun_c4_478_9_alg».proof.Proof.GcnFinal
import proofs.«102800_g85255100825815_cont_sun_c4_478_9_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end and leaves its five argument arrays as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal Cert.KernelIdeal.Hand in
/-- The idealized kernel's run, read: with finite inputs the output array ends at the reference's table of the
    argument arrays, and the arguments are unchanged. -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => by
    obtain ⟨f0, f1, f2, f3, f4⟩ := Cert.GcnFinite.finite_of_pre _ _ _ _ _ (hpre c)
    exact ⟨Cert.KernelIdeal.HandValue.out_final m c f0 f1 f2 f3 f4 _ ((h c).1 6),
      (Eq.mp (congrFun ((rdat m c).ArrAt_in 0 rfl _) _) ((h c).1 0)).trans ((A_eq m c 0).trans (V_main_arg0 m c)),
      (Eq.mp (congrFun ((rdat m c).ArrAt_in 2 rfl _) _) ((h c).1 2)).trans ((A_eq m c 2).trans (V_main_arg1 m c)),
      (Eq.mp (congrFun ((rdat m c).ArrAt_in 3 rfl _) _) ((h c).1 3)).trans ((A_eq m c 3).trans (V_main_arg2 m c)),
      ((h c).2 Cert.KernelIdeal.main_arg3 (Pipeline.mem_restRefs_of Cert.KernelIdeal.main_arg3 rfl (by decide))).trans (V_main_arg3 m c),
      ((h c).2 Cert.KernelIdeal.main_arg4 (Pipeline.mem_restRefs_of Cert.KernelIdeal.main_arg4 rfl (by decide))).trans (V_main_arg4 m c)⟩)
    (Cert.KernelIdeal.Hand.run_main (F := Ideal) m ρ)

/-- From memories agreeing on the arguments, both idealized programs end at one table: the reference's function of
    the arguments. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨?_, (h c).2⟩) (Cert.ReferenceIdeal.RefValue.run_G m' ρ')
  rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
